-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024x2048 : Shape := ⟨2, ![1024, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4x2048x1024 .f32) (main_arg1 : FVec F S1024x1024 .f32) (main_arg2 : FVec F S1024x2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Kernel.lean ====
abbrev S4x2048x1024 : Shape := ⟨3, ![4, 2048, 1024]⟩
abbrev S1024x1024 : Shape := ⟨2, ![1024, 1024]⟩
abbrev S1024x2048 : Shape := ⟨2, ![1024, 2048]⟩
abbrev S64x2048x64 : Shape := ⟨3, ![64, 2048, 64]⟩
abbrev S1x256x1024 : Shape := ⟨3, ![1, 256, 1024]⟩
abbrev S16x256x64 : Shape := ⟨3, ![16, 256, 64]⟩
abbrev S256x1024 : Shape := ⟨2, ![256, 1024]⟩
abbrev S256x2048 : Shape := ⟨2, ![256, 2048]⟩
abbrev S256x16x64 : Shape := ⟨3, ![256, 16, 64]⟩
abbrev S16x64x64 : Shape := ⟨3, ![16, 64, 64]⟩
abbrev S16x2048x64 : Shape := ⟨3, ![16, 2048, 64]⟩
abbrev S16x64x2048 : Shape := ⟨3, ![16, 64, 2048]⟩
abbrev S16x64 : Shape := ⟨2, ![16, 64]⟩
abbrev S16x64x1 : Shape := ⟨3, ![16, 64, 1]⟩
abbrev S4x16x2048x64 : Shape := ⟨4, ![4, 16, 2048, 64]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x2048, .f32⟩
  | .hbm, ⟨3, _⟩ => ⟨S1024x1024, .bf16⟩
  | .hbm, ⟨4, _⟩ => ⟨S1024x2048, .bf16⟩
  | .hbm, ⟨5, _⟩ => ⟨S64x2048x64, .bf16⟩
  | .hbm, ⟨6, _⟩ => ⟨S64x2048x64, .bf16⟩
  | .hbm, ⟨7, _⟩ => ⟨S64x2048x64, .bf16⟩
  | .hbm, ⟨8, _⟩ => ⟨S64x2048x64, .f32⟩
  | .hbm, ⟨9, _⟩ => ⟨S4x16x2048x64, .f32⟩
  | .hbm, ⟨10, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x2048, .bf16⟩
  | .local _ .vmem, ⟨4, _⟩ => ⟨S16x256x64, .bf16⟩
  | .local _ .vmem, ⟨5, _⟩ => ⟨S16x256x64, .bf16⟩
  | .local _ .vmem, ⟨6, _⟩ => ⟨S16x256x64, .bf16⟩
  | .local _ .vmem, ⟨7, _⟩ => ⟨S16x256x64, .bf16⟩
  | .local _ .vmem, ⟨8, _⟩ => ⟨S16x256x64, .bf16⟩
  | .local _ .vmem, ⟨9, _⟩ => ⟨S16x256x64, .bf16⟩
  | .local _ .vmem, ⟨10, _⟩ => ⟨S16x64x64, .bf16⟩
  | .local _ .vmem, ⟨11, _⟩ => ⟨S16x64x64, .bf16⟩
  | .local _ .vmem, ⟨12, _⟩ => ⟨S16x2048x64, .bf16⟩
  | .local _ .vmem, ⟨13, _⟩ => ⟨S16x2048x64, .bf16⟩
  | .local _ .vmem, ⟨14, _⟩ => ⟨S16x2048x64, .bf16⟩
  | .local _ .vmem, ⟨15, _⟩ => ⟨S16x2048x64, .bf16⟩
  | .local _ .vmem, ⟨16, _⟩ => ⟨S16x64x64, .f32⟩
  | .local _ .vmem, ⟨17, _⟩ => ⟨S16x64x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S16x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S16x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x2048_o0_0_S256x1024 : S256x2048.Slices ![0, 0] S256x1024
  slices_S256x2048_o0_1024_S256x1024 : S256x2048.Slices ![0, 1024] S256x1024
  shapeCasts_S256x1024_S256x16x64 : S256x1024.ShapeCasts S256x16x64
  transposes_S256x16x64_p1_0_2_S16x256x64 : S256x16x64.Transposes [1, 0, 2] S16x256x64
  inb_S16x256x64_S16x256x64_0_0_0 : ∀ a, (![0, 0, 0] : Fin 3 → Nat) a + S16x256x64.size a ≤ S16x256x64.size a
  h_S16x256x64 : 0 < S16x256x64.numel
  packedbf16_S16x256x64_S16x256x64_0_0_0 : (Rect.unit (s := S16x256x64) ![0, 0, 0] S16x256x64.size inb_S16x256x64_S16x256x64_0_0_0).PackedRows (EltTy.packing .bf16)
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  inb_S16x2048x64_S16x2048x64_0_0_0 : ∀ a, (![0, 0, 0] : Fin 3 → Nat) a + S16x2048x64.size a ≤ S16x2048x64.size a
  h_S16x2048x64 : 0 < S16x2048x64.numel
  shapeCasts_S16x2048x64_S16x2048x64 : S16x2048x64.ShapeCasts S16x2048x64
  reduces_S16x64x2048_S16x64 : S16x64x2048.Reduces [2] S16x64
  shapeCasts_S16x64_S16x64x1 : S16x64.ShapeCasts S16x64x1
  broadcasts_S16x64x1_S16x64x2048 : S16x64x1.Broadcasts S16x64x2048
  shapeCasts_S64x2048x64_S4x16x2048x64 : S64x2048x64.ShapeCasts S4x16x2048x64
  shapeCasts_S4x16x2048x64_S4x2048x1024 : S4x16x2048x64.ShapeCasts S4x2048x1024
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S16x64x64_S16x2048x64_S16x64x2048_2_2_1_1_0_0_wf : DotDims.WF S16x64x64 S16x2048x64 S16x64x2048 [2] [2] [1] [1] [0] [0]
  dot_S16x64x2048_S16x2048x64_S16x64x64_2_1_1_2_0_0_wf : DotDims.WF S16x64x2048 S16x2048x64 S16x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x64.size a ≤ S64x2048x64.size a
  hwx0_3 : ∀ i : grid0.Coords, EltTy.bits .bf16 = 32 ∨ (Rect.block (s := S64x2048x64) S16x256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x64.size a ≤ S64x2048x64.size a
  hwx0_4 : ∀ i : grid0.Coords, EltTy.bits .bf16 = 32 ∨ (Rect.block (s := S64x2048x64) S16x256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x64.size a ≤ S64x2048x64.size a
  hwx0_5 : ∀ i : grid0.Coords, EltTy.bits .bf16 = 32 ∨ (Rect.block (s := S64x2048x64) S16x256x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x64x64.size a ≤ S64x2048x64.size a
  hwx1_0 : ∀ i : grid1.Coords, EltTy.bits .bf16 = 32 ∨ (Rect.block (s := S64x2048x64) S16x64x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x2048x64.size a ≤ S64x2048x64.size a
  hwx1_1 : ∀ i : grid1.Coords, EltTy.bits .bf16 = 32 ∨ (Rect.block (s := S64x2048x64) S16x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x2048x64.size a ≤ S64x2048x64.size a
  hwx1_2 : ∀ i : grid1.Coords, EltTy.bits .bf16 = 32 ∨ (Rect.block (s := S64x2048x64) S16x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x64x64.size a ≤ S64x2048x64.size a
  hwx1_3 : ∀ i : grid1.Coords, EltTy.bits .f32 = 32 ∨ (Rect.block (s := S64x2048x64) S16x64x64.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S16x64x64_S16x2048x64_S16x64x2048_2_2_1_1_0_0 : DotDims S16x64x64 S16x2048x64 S16x64x2048 where
  lhsContracting := [2]
  rhsContracting := [2]
  lhsNonContracting := [1]
  rhsNonContracting := [1]
  lhsBatch := [0]
  rhsBatch := [0]
  wf := dot_S16x64x64_S16x2048x64_S16x64x2048_2_2_1_1_0_0_wf
def dot_S16x64x2048_S16x2048x64_S16x64x64_2_1_1_2_0_0 : DotDims S16x64x2048 S16x2048x64 S16x64x64 where
  lhsContracting := [2]
  rhsContracting := [1]
  lhsNonContracting := [1]
  rhsNonContracting := [2]
  lhsBatch := [0]
  rhsBatch := [0]
  wf := dot_S16x64x2048_S16x2048x64_S16x64x64_2_1_1_2_0_0_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S16x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S16x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S16x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S16x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S16x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S16x64x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024x2048 : Shape := ⟨2, ![1024, 2048]⟩
abbrev S4x2048x2048 : Shape := ⟨3, ![4, 2048, 2048]⟩
abbrev S4x2048x16x64 : Shape := ⟨4, ![4, 2048, 16, 64]⟩
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x2048, .f32⟩
  | .hbm, ⟨3, _⟩ => ⟨S4x2048x1024, .f32⟩
  | .hbm, ⟨4, _⟩ => ⟨S4x2048x2048, .f32⟩
  | .hbm, ⟨5, _⟩ => ⟨S4x2048x1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S_, .f32⟩
  | .hbm, ⟨10, _⟩ => ⟨S4x16x2048x64, .f32⟩
  | .hbm, ⟨11, _⟩ => ⟨S4x16x2048x64, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  slices_S4x2048x2048_S4x2048x1024_0_0_0 : S4x2048x2048.Slices ![0, 0, 0] S4x2048x1024
  slices_S4x2048x2048_S4x2048x1024_0_0_1024 : S4x2048x2048.Slices ![0, 0, 1024] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x64 : S_.BroadcastsInDim S4x16x2048x64 (![] : Fin 0 → Fin S4x16x2048x64.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  shapeCasts_S4x16x2048x64_S4x2048x1024 : S4x16x2048x64.ShapeCasts S4x2048x1024
  dot_S4x2048x1024_S1024x1024_S4x2048x1024_2_0_01_1_n_n_wf : DotDims.WF S4x2048x1024 S1024x1024 S4x2048x1024 [2] [0] [0, 1] [1] [] []
  dot_S4x2048x1024_S1024x2048_S4x2048x2048_2_0_01_1_n_n_wf : DotDims.WF S4x2048x1024 S1024x2048 S4x2048x2048 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S1024x2048_S4x2048x2048_2_0_01_1_n_n : DotDims S4x2048x1024 S1024x2048 S4x2048x2048 where
  lhsContracting := [2]
  rhsContracting := [0]
  lhsNonContracting := [0, 1]
  rhsNonContracting := [1]
  lhsBatch := []
  rhsBatch := []
  wf := dot_S4x2048x1024_S1024x2048_S4x2048x2048_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  The mathematics both programs compute, stated once, index by index, on the extended reals.

  The input is x : [4, 2048, 1024] (batch, position, channel) and two weight matrices.  A projection
  multiplies each position's channel vector by a weight matrix; head h of a projection is its columns
  64 h … 64 h + 63.  `projAt` reads a projection in the head-split layout [64, 2048, 64], whose first
  axis is 16 · batch + head; `projRef` reads the same number in the layout [4, 16, 2048, 64].
  For one query row, `attnCore s v` is the softmax of the 2048 scores `s` (shifted by their maximum)
  applied to the values `v`:  Σ_k exp(s k − max s) / (Σ_k' exp(s k' − max s)) · v k.
  The kernel scales a score after summing over the head's 64 channels (`scoreAt`), the reference scales
  the query entries before (`refScore`); on real entries the two agree, by distributivity.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- the input's shape: batch, position, channel -/
abbrev SX : Shape := ⟨3, ![4, 2048, 1024]⟩
/-- head-split arrays: 16 · batch + head, position, channel within the head -/
abbrev SHd : Shape := ⟨3, ![64, 2048, 64]⟩
/-- the same with batch and head on separate axes -/
abbrev SB4 : Shape := ⟨4, ![4, 16, 2048, 64]⟩

/-- the float words both programs carry: −∞ (the maximum's start), 1/8 (the score scale), 0 -/
abbrev negInf : EReal := Ideal.ofBits .f32 0xFF800000#32
abbrev scale : EReal := Ideal.ofBits .f32 0x3E000000#32

/-- Entry (l, d) of head `bh mod 16` of batch `bh / 16` of the projection of `x` by the columns
    `o … o + 1023` of `w`. -/
def projAt {n : Nat} (x : SX.Idx → EReal) (w : (⟨2, ![1024, n]⟩ : Shape).Idx → EReal) (o : Nat) (ho : o + 1024 ≤ n)
    (bh : Fin 64) (l : Fin 2048) (d : Fin 64) : EReal :=
  ∑ k : Fin 1024, x (ix3 (⟨bh.val / 16, by omega⟩ : Fin 4) l k)
    * w (ix2 k (⟨o + (bh.val % 16 * 64 + d.val), by omega⟩ : Fin n))

/-- The projection as a head-split array. -/
def projHeads {n : Nat} (x : SX.Idx → EReal) (w : (⟨2, ![1024, n]⟩ : Shape).Idx → EReal) (o : Nat) (ho : o + 1024 ≤ n) :
    SHd.Idx → EReal := fun j => projAt x w o ho (j 0) (j 1) (j 2)

/-- The same entry named by batch `b` and head `h` separately. -/
def projRef {n : Nat} (x : SX.Idx → EReal) (w : (⟨2, ![1024, n]⟩ : Shape).Idx → EReal) (o : Nat) (ho : o + 1024 ≤ n)
    (b : Fin 4) (h : Fin 16) (l : Fin 2048) (d : Fin 64) : EReal :=
  ∑ k : Fin 1024, x (ix3 b l k) * w (ix2 k (⟨o + (h.val * 64 + d.val), by omega⟩ : Fin n))

/-- The largest of a row of scores, from −∞. -/
def rowMax (s : Fin 2048 → EReal) : EReal := (Finset.univ : Finset (Fin 2048)).fold max negInf s

/-- One query row's output channel: the softmax of the scores `s` applied to the values `v`. -/
def attnCore (s v : Fin 2048 → EReal) : EReal :=
  ∑ k : Fin 2048, Ideal.div (Ideal.exp (s k - rowMax s)) (∑ k' : Fin 2048, Ideal.exp (s k' - rowMax s)) * v k

/-- The kernel's score of query `q` against key `k` in head `bh`: the 64-channel inner product, then the scale. -/
def scoreAt (Q K : SHd.Idx → EReal) (bh : Fin 64) (q k : Fin 2048) : EReal :=
  (∑ d : Fin 64, Q (ix3 bh q d) * K (ix3 bh k d)) * scale

/-- Attention over head-split arrays: what the second kernel writes, as one array. -/
def attnHeads (Q K V : SHd.Idx → EReal) : SHd.Idx → EReal := fun j =>
  attnCore (fun k => scoreAt Q K (j 0) (j 1) k) (fun k => V (ix3 (j 0) k (j 2)))

/-- The reference's score: the query entries are scaled before the inner product. -/
def refScore (x : SX.Idx → EReal) (wq : (⟨2, ![1024, 1024]⟩ : Shape).Idx → EReal) (wkv : (⟨2, ![1024, 2048]⟩ : Shape).Idx → EReal)
    (b : Fin 4) (h : Fin 16) (q k : Fin 2048) : EReal :=
  ∑ d : Fin 64, (projRef x wq 0 (by omega) b h q d * scale) * projRef x wkv 0 (by omega) b h k d

/-- The reference's attention output before its last reshape. -/
def refOut (x : SX.Idx → EReal) (wq : (⟨2, ![1024, 1024]⟩ : Shape).Idx → EReal) (wkv : (⟨2, ![1024, 2048]⟩ : Shape).Idx → EReal) :
    SB4.Idx → EReal := fun i =>
  attnCore (fun k => refScore x wq wkv (i 0) (i 1) (i 2) k) (fun k => projRef x wkv 1024 (by omega) (i 0) (i 1) k (i 3))

/-- The kernel's three head-split projections and its attention over them. -/
def kerOut (x : SX.Idx → EReal) (wq : (⟨2, ![1024, 1024]⟩ : Shape).Idx → EReal) (wkv : (⟨2, ![1024, 2048]⟩ : Shape).Idx → EReal) :
    SHd.Idx → EReal :=
  attnHeads (projHeads x wq 0 (by omega)) (projHeads x wkv 0 (by omega)) (projHeads x wkv 1024 (by omega))

end Cert.AttnSpec

end
-- ==== Proof.KernelRun.lean ====
/-
  The idealized kernel's run with its result NAMED.

  @main is four segments: two format changes of the weights, the projection region, the attention region,
  and two reshapes.  The contents of every buffer at each boundary are folded from the launch memory
  (`Gen.W1 … Gen.W4`); the last boundary's contents at the result buffer are therefore the two reshapes of
  the attention region's output array, that array is the attention region's write-backs folded over its
  entry contents, and the three arrays it reads are the projection region's write-backs.
-/
import proofs.«167473_j43894565765797_2_alg».proof.Proof.Gen.KernelIdeal.Frame
import Idealize.ShloMosaic.Lib.StableHlo.Run
import Idealize.ShloMosaic.Lib.Pipeline.Value

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the three argument arrays end as launched. -/
theorem run_named : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The result buffer at the last boundary: the two reshapes of the attention region's output array. -/
theorem tail_eq (c : Dev nD) :
    (W4 m ρ c (Proc.devRef .tc main_v5) : S4x2048x1024.Idx → Elt F .f32)
      = shapeCast S4x2048x1024 (shapeCast S4x16x2048x64 ((dat1 (V2 m ρ) c).arrAt 3 cfg1.N : S64x2048x64.Idx → Elt F .f32)
          shapeCasts_S64x2048x64_S4x16x2048x64) shapeCasts_S4x16x2048x64_S4x2048x1024 := by
  rw [← W3_arr m ρ c 3]
  dsimp only [W4, hostOps2]
  after_results
  rfl

/-- The attention region finds the projection region's three output arrays. -/
theorem entry_q (c : Dev nD) : V2 m ρ c main_v2_0 = (dat0 (V1 m ρ) c).arrAt 3 cfg0.N := W2_arr m ρ c 3
theorem entry_k (c : Dev nD) : V2 m ρ c main_v2_1 = (dat0 (V1 m ρ) c).arrAt 4 cfg0.N := W2_arr m ρ c 4
theorem entry_v (c : Dev nD) : V2 m ρ c main_v2_2 = (dat0 (V1 m ρ) c).arrAt 5 cfg0.N := W2_arr m ρ c 5

/-- The projection region finds the input as launched and the two weight matrices after their format change. -/
theorem entry_x (c : Dev nD) : V1 m ρ c main_arg0 = m ((c.tc : Thread nD τ).loc main_arg0) := by
  dsimp only [V1, W1, hostOps0]
  after_results
theorem entry_wq (c : Dev nD) :
    (V1 m ρ c main_v0 : S1024x1024.Idx → Elt F .bf16) = truncf .bf16 (m ((c.tc : Thread nD τ).loc main_arg1) : S1024x1024.Idx → Elt F .f32) bitsLt_bf16_f32 := by
  dsimp only [V1, W1, hostOps0]
  after_results
theorem entry_wkv (c : Dev nD) :
    (V1 m ρ c main_v1 : S1024x2048.Idx → Elt F .bf16) = truncf .bf16 (m ((c.tc : Thread nD τ).loc main_arg2) : S1024x2048.Idx → Elt F .f32) bitsLt_bf16_f32 := by
  dsimp only [V1, W1, hostOps0]
  after_results

end Cert.KernelIdeal.RunValue

end
-- ==== Proof.ProjPayload.lean ====
/-
  The projection kernel's three stored values, read at an index.

  The body multiplies a [256, 1024] block of rows of the input by a weight matrix, splits the 1024 (or
  2 × 1024) result columns into 16 heads of 64 channels and moves the head axis to the front.  Entry
  (h, r, d) of a stored value is therefore row r of the block times column o + 64 h + d of the weights,
  where o = 0 for the query and key projections and o = 1024 for the value projection (the key and value
  projections are the left and right halves of one product).
-/
import proofs.«167473_j43894565765797_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjPayload

open Idealize.ShloMosaic Idealize.ShloMosaic.ValueIdx Idealize.SL.Sem
open Cert.KernelIdeal Cert.KernelIdeal.Gen

/-- The activations fed to both products: the block's leading unit axis dropped (rounding is the identity on the
    extended reals). -/
theorem act_apply (x0 : Vec Ideal S1x256x1024 .f32) (r : Fin 256) (k : Fin 1024) :
    k0_pay1 (F := Ideal) x0 (ix2 r k) = x0 (ix3 (0 : Fin 1) r k) := by
  unfold k0_pay1
  refine shapeCast_apply x0 shapeCasts_S1x256x1024_S256x1024 (ix2 r k) (ix3 (0 : Fin 1) r k) ?_
  rw [Shape.rowMajor_val_three, Shape.rowMajor_val_two]
  show ((0 : Fin 1).val * 256 + r.val) * 1024 + k.val = r.val * 1024 + k.val
  simp

/-- Splitting 1024 columns into 16 heads of 64 channels and moving the head axis to the front: entry (h, r, d) of
    the result is entry (r, 64 h + d) of the matrix. -/
theorem heads_apply (v : FVec Ideal S256x1024 .f32) (h' : Fin 16) (r : Fin 256) (d : Fin 64) :
    (truncf .bf16 (transpose S16x256x64 [1, 0, 2] (shapeCast S256x16x64 v shapeCasts_S256x1024_S256x16x64)
        transposes_S256x16x64_p1_0_2_S16x256x64) bitsLt_bf16_f32 : FVec Ideal S16x256x64 .bf16) (ix3 h' r d)
      = v (ix2 r (⟨h'.val * 64 + d.val, by omega⟩ : Fin 1024)) := by
  rw [truncf_apply]
  refine (transpose_apply [1, 0, 2] _ transposes_S256x16x64_p1_0_2_S16x256x64 (ix3 h' r d) (ix3 r h' d) ?_).trans ?_
  · intro b
    match b with
    | ⟨0, _⟩ => rfl
    | ⟨1, _⟩ => rfl
    | ⟨2, _⟩ => rfl
  refine shapeCast_apply v shapeCasts_S256x1024_S256x16x64 (ix3 r h' d) (ix2 r (⟨h'.val * 64 + d.val, by omega⟩ : Fin 1024)) ?_
  rw [Shape.rowMajor_val_two, Shape.rowMajor_val_three]
  show r.val * 1024 + (h'.val * 64 + d.val) = (r.val * 16 + h'.val) * 64 + d.val
  omega

/-! The operand indices of the product by the square weight: the left operand is read at (row, contraction index), the right
    operand at (contraction index, column). -/

theorem lhsq_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsq_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsq_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsq_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product by the square weight into a zero accumulator, at (row, column): the sum over the 1024 input channels. -/
theorem mmq_apply (a : FVec Ideal S256x1024 .bf16) (w : FVec Ideal S1024x1024 .bf16) (r : Fin 256) (n : Fin 1024) :
    matmul dot_S256x1024_S1024x1024_S256x1024_1_0_0_1_n_n none a w (constant (F := Ideal) S256x1024 .f32 0x00000000#32) (ix2 r n)
      = ∑ k : Fin 1024, a (ix2 r k) * w (ix2 k n) := by
  refine (Ideal.matmul_constant_zero_apply dot_S256x1024_S1024x1024_S256x1024_1_0_0_1_n_n none a w (ix2 r n)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r n) ((contrEquiv1 dot_S256x1024_S1024x1024_S256x1024_1_0_0_1_n_n 1024 rfl rfl).symm k) = ix2 r k := funext fun a => Fin.ext (by
    match a with
    | ⟨0, _⟩ => exact lhsq_0 _ _
    | ⟨1, _⟩ => exact (lhsq_1 _ _).trans hk)
  have er : dot_S256x1024_S1024x1024_S256x1024_1_0_0_1_n_n.rhsIdx (ix2 r n) ((contrEquiv1 dot_S256x1024_S1024x1024_S256x1024_1_0_0_1_n_n 1024 rfl rfl).symm k) = ix2 k n := funext fun a => Fin.ext (by
    match a with
    | ⟨0, _⟩ => exact (rhsq_0 _ _).trans hk
    | ⟨1, _⟩ => exact rhsq_1 _ _)
  rw [el, er]

/-! The operand indices of the product by the wide weight: the left operand is read at (row, contraction index), the right
    operand at (contraction index, column). -/

theorem lhskv_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhskv_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhskv_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhskv_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The product by the wide weight into a zero accumulator, at (row, column): the sum over the 1024 input channels. -/
theorem mmkv_apply (a : FVec Ideal S256x1024 .bf16) (w : FVec Ideal S1024x2048 .bf16) (r : Fin 256) (n : Fin 2048) :
    matmul dot_S256x1024_S1024x2048_S256x2048_1_0_0_1_n_n none a w (constant (F := Ideal) S256x2048 .f32 0x00000000#32) (ix2 r n)
      = ∑ k : Fin 1024, a (ix2 r k) * w (ix2 k n) := by
  refine (Ideal.matmul_constant_zero_apply dot_S256x1024_S1024x2048_S256x2048_1_0_0_1_n_n none a w (ix2 r n)).trans ?_
  rw [← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r n) ((contrEquiv1 dot_S256x1024_S1024x2048_S256x2048_1_0_0_1_n_n 1024 rfl rfl).symm k) = ix2 r k := funext fun a => Fin.ext (by
    match a with
    | ⟨0, _⟩ => exact lhskv_0 _ _
    | ⟨1, _⟩ => exact (lhskv_1 _ _).trans hk)
  have er : dot_S256x1024_S1024x2048_S256x2048_1_0_0_1_n_n.rhsIdx (ix2 r n) ((contrEquiv1 dot_S256x1024_S1024x2048_S256x2048_1_0_0_1_n_n 1024 rfl rfl).symm k) = ix2 k n := funext fun a => Fin.ext (by
    match a with
    | ⟨0, _⟩ => exact (rhskv_0 _ _).trans hk
    | ⟨1, _⟩ => exact rhskv_1 _ _)
  rw [el, er]

/-- The joint key–value product at (row, column): the row's activations against that column of the wide weight. -/
theorem kv_apply (x0 : Vec Ideal S1x256x1024 .f32) (x2 : Vec Ideal S1024x2048 .bf16) (r : Fin 256) (n : Fin 2048) :
    k0_pay2 (F := Ideal) x0 x2 (ix2 r n) = ∑ k : Fin 1024, x0 (ix3 (0 : Fin 1) r k) * x2 (ix2 k n) := by
  unfold k0_pay2
  rw [shapeCast_self]
  refine (mmkv_apply _ _ r n).trans ?_
  refine Finset.sum_congr rfl fun k _ => ?_
  rw [act_apply]

theorem pay_q (x0 : Vec Ideal S1x256x1024 .f32) (x1 : Vec Ideal S1024x1024 .bf16) (h' : Fin 16) (r : Fin 256) (d : Fin 64) :
    k0_pay3 x0 x1 (ix3 h' r d)
      = ∑ k : Fin 1024, x0 (ix3 (0 : Fin 1) r k) * x1 (ix2 k (⟨0 + (h'.val * 64 + d.val), by omega⟩ : Fin 1024)) := by
  unfold k0_pay3
  dsimp only
  refine (heads_apply _ h' r d).trans ?_
  rw [shapeCast_self]
  refine (mmq_apply _ _ r _).trans ?_
  refine Finset.sum_congr rfl fun k _ => ?_
  rw [act_apply]
  exact congrArg (fun n => x0 (ix3 (0 : Fin 1) r k) * x1 (ix2 k n)) (Fin.ext (Nat.zero_add _).symm)

theorem pay_k (x0 : Vec Ideal S1x256x1024 .f32) (x2 : Vec Ideal S1024x2048 .bf16) (h' : Fin 16) (r : Fin 256) (d : Fin 64) :
    k0_pay4 x0 x2 (ix3 h' r d)
      = ∑ k : Fin 1024, x0 (ix3 (0 : Fin 1) r k) * x2 (ix2 k (⟨0 + (h'.val * 64 + d.val), by omega⟩ : Fin 2048)) := by
  unfold k0_pay4
  dsimp only
  refine (heads_apply _ h' r d).trans ?_
  refine (extractStridedSlice_apply ![0, 0] (k0_pay2 x0 x2) slices_S256x2048_o0_0_S256x1024
    (ix2 r (⟨h'.val * 64 + d.val, by omega⟩ : Fin 1024)) (ix2 r (⟨0 + (h'.val * 64 + d.val), by omega⟩ : Fin 2048)) ?_).trans ?_
  · intro a
    match a with
    | ⟨0, _⟩ => exact (Nat.zero_add _).symm
    | ⟨1, _⟩ => rfl
  exact kv_apply x0 x2 r _

theorem pay_v (x0 : Vec Ideal S1x256x1024 .f32) (x2 : Vec Ideal S1024x2048 .bf16) (h' : Fin 16) (r : Fin 256) (d : Fin 64) :
    k0_pay5 x0 x2 (ix3 h' r d)
      = ∑ k : Fin 1024, x0 (ix3 (0 : Fin 1) r k) * x2 (ix2 k (⟨1024 + (h'.val * 64 + d.val), by omega⟩ : Fin 2048)) := by
  unfold k0_pay5
  dsimp only
  refine (heads_apply _ h' r d).trans ?_
  refine (extractStridedSlice_apply ![0, 1024] (k0_pay2 x0 x2) slices_S256x2048_o0_1024_S256x1024
    (ix2 r (⟨h'.val * 64 + d.val, by omega⟩ : Fin 1024)) (ix2 r (⟨1024 + (h'.val * 64 + d.val), by omega⟩ : Fin 2048)) ?_).trans ?_
  · intro a
    match a with
    | ⟨0, _⟩ => exact (Nat.zero_add _).symm
    | ⟨1, _⟩ => rfl
  exact kv_apply x0 x2 r _

end Cert.KernelIdeal.ProjPayload

end
-- ==== Proof.ProjValue.lean ====
/-
  The projection kernel's three output arrays, as whole arrays.

  The grid is 4 × 8: point (b, i) multiplies rows 256 i … 256 i + 255 of batch b of the input by a weight
  matrix and writes, for each of the 16 heads, a [256, 64] tile: block (b, i, 0) of a [64, 2048, 64] array
  in blocks of [16, 256, 64].  Entry (h', r, d) of that block is entry (16 b + h', 256 i + r, d) of the
  array, and it is row 256 i + r of batch b times column o + 64 h' + d of the weights: the head-split
  projection at that index, since (16 b + h') / 16 = b and (16 b + h') mod 16 = h'.  The 32 blocks cover
  the array, so the array ends holding the head-split projection everywhere.
-/
import proofs.«167473_j43894565765797_2_alg».proof.Proof.ProjPayload
import proofs.«167473_j43894565765797_2_alg».proof.Proof.AttnSpec
import proofs.«167473_j43894565765797_2_alg».proof.Proof.Gen.KernelIdeal.Frame
import Idealize.ShloMosaic.Lib.Pipeline.Value

set_option maxRecDepth 16384

noncomputable section

namespace Cert.KernelIdeal.ProjValue

open Idealize.ShloMosaic Idealize.ShloMosaic.TcCoe Idealize.SL.Sem Idealize.ShloMosaic.ValueIdx
open Cert.KernelIdeal Cert.KernelIdeal.Gen Cert.AttnSpec

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the input's row block moves with the output's block, the
    weights stay whole, and the three outputs' block indices are the same (b, i, 0) with b ≤ 3, i ≤ 7. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 7 ∧ win0_3.index t (2 : Fin 3) = 0
    ∧ win0_4.index t = win0_3.index t ∧ win0_5.index t = win0_3.index t :=
  (by decide +kernel : ∀ t : Fin grid0.N, _)

/-- Every block (b, i, 0) is some point's. -/
theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- One entry of a block's product is the head-split projection at the entry's place in the array: with the
    row block read off rows 256 i … of batch b of `A`, and the weights block all of `W`, entry (h', r, d) is
    the projection's entry (16 b + h', 256 i + r, d). -/
theorem entry_eq {n : Nat} (A : SX.Idx → EReal) (W : (⟨2, ![1024, n]⟩ : Shape).Idx → EReal) (o : Nat) (ho : o + 1024 ≤ n)
    (x0 : S1x256x1024.Idx → EReal) (x1 : (⟨2, ![1024, n]⟩ : Shape).Idx → EReal) (b i : Nat)
    (h0 : ∀ (x : S1x256x1024.Idx) (k : SX.Idx), (k 0).val = b → (k 1).val = i * 256 + (x 1).val →
      (k 2).val = (x 2).val → x0 x = A k)
    (h1 : ∀ x, x1 x = W x)
    (y : S16x256x64.Idx) (j : SHd.Idx) (hj0 : (j 0).val = b * 16 + (y 0).val)
    (hj1 : (j 1).val = i * 256 + (y 1).val) (hj2 : (j 2).val = (y 2).val) (p : EReal)
    (hp : p = ∑ k : Fin 1024, x0 (ix3 (0 : Fin 1) (y 1) k)
      * x1 (ix2 k (⟨o + ((y 0).val * 64 + (y 2).val), by have h0 : (y 0).val < 16 := (y 0).isLt; have h2 : (y 2).val < 64 := (y 2).isLt; omega⟩ : Fin n))) :
    p = projHeads A W o ho j := by
  rw [hp]
  show _ = projAt A W o ho (j 0) (j 1) (j 2)
  unfold projAt
  refine Finset.sum_congr rfl fun k _ => ?_
  have hy0 : (y 0).val < 16 := (y 0).isLt
  rw [h0 (ix3 (0 : Fin 1) (y 1) k) (ix3 (⟨(j 0).val / 16, by have h0 : (j 0).val < 64 := (j 0).isLt; omega⟩ : Fin 4) (j 1) k)
    (by show (j 0).val / 16 = b; omega) hj1 rfl, h1]
  have e : (⟨o + ((y 0).val * 64 + (y 2).val), by have h2 : (y 2).val < 64 := (y 2).isLt; omega⟩ : Fin n)
      = ⟨o + ((j 0).val % 16 * 64 + (j 2).val), by have h2 : (j 2).val < 64 := (j 2).isLt; omega⟩ :=
    Fin.ext (by show o + ((y 0).val * 64 + (y 2).val) = o + ((j 0).val % 16 * 64 + (j 2).val); omega)
  rw [e]

/-- The input's block at a point is rows 256 i … 256 i + 255 of batch b, the point's block index being (b, i, 0). -/
theorem xblk_apply (c : Dev nD) (t : Fin cfg0.N) (x : S1x256x1024.Idx) (k : SX.Idx)
    (hk0 : (k 0).val = win0_3.index t (0 : Fin 3)) (hk1 : (k 1).val = win0_3.index t (1 : Fin 3) * 256 + (x 1).val)
    (hk2 : (k 2).val = (x 2).val) :
    (iblk0 V c 0 t : Vec Ideal S1x256x1024 .f32) x = (V c main_arg0 : SX.Idx → EReal) k := by
  obtain ⟨e0, e1, e2, -⟩ := idx_facts t
  unfold iblk0
  rw [View.read_apply]
  show V c main_arg0 _ = V c main_arg0 _
  congr 1
  funext a
  apply Fin.ext
  have hx0 : (x 0).val < 1 := (x 0).isLt
  match a with
  | ⟨0, _⟩ => show win0_0.index t (0 : Fin 3) * 1 + 1 * (x 0).val = (k 0).val; omega
  | ⟨1, _⟩ => show win0_0.index t (1 : Fin 3) * 256 + 1 * (x 1).val = (k 1).val; omega
  | ⟨2, _⟩ => show win0_0.index t (2 : Fin 3) * 1024 + 1 * (x 2).val = (k 2).val; omega

/-- The query weights' block at any point is the whole matrix. -/
theorem wq_blk_apply (c : Dev nD) (t : Fin cfg0.N) (x : S1024x1024.Idx) :
    (iblk0 V c 1 t : Vec Ideal S1024x1024 .bf16) x = (V c main_v0 : S1024x1024.Idx → EReal) x := by
  obtain ⟨-, -, -, e3, e4, -⟩ := idx_facts t
  unfold iblk0
  rw [View.read_apply]
  show V c main_v0 _ = V c main_v0 _
  congr 1
  funext a
  apply Fin.ext
  match a with
  | ⟨0, _⟩ => show win0_1.index t (0 : Fin 2) * 1024 + 1 * (x 0).val = (x 0).val; omega
  | ⟨1, _⟩ => show win0_1.index t (1 : Fin 2) * 1024 + 1 * (x 1).val = (x 1).val; omega

/-- The key and value weights' block at any point is the whole matrix. -/
theorem wkv_blk_apply (c : Dev nD) (t : Fin cfg0.N) (x : S1024x2048.Idx) :
    (iblk0 V c 2 t : Vec Ideal S1024x2048 .bf16) x = (V c main_v1 : S1024x2048.Idx → EReal) x := by
  obtain ⟨-, -, -, -, -, e5, e6, -⟩ := idx_facts t
  unfold iblk0
  rw [View.read_apply]
  show V c main_v1 _ = V c main_v1 _
  congr 1
  funext a
  apply Fin.ext
  match a with
  | ⟨0, _⟩ => show win0_2.index t (0 : Fin 2) * 1024 + 1 * (x 0).val = (x 0).val; omega
  | ⟨1, _⟩ => show win0_2.index t (1 : Fin 2) * 2048 + 1 * (x 1).val = (x 1).val; omega

/-! ## The query array (window 3) -/

/-- The payload of the query projection at any index of its block. -/
theorem pay_q_at (x0 : Vec Ideal S1x256x1024 .f32) (x1 : Vec Ideal S1024x1024 .bf16) (y : S16x256x64.Idx) :
    k0_pay3 x0 x1 y = ∑ k : Fin 1024, x0 (ix3 (0 : Fin 1) (y 1) k)
      * x1 (ix2 k (⟨0 + ((y 0).val * 64 + (y 2).val), by have h0 : (y 0).val < 16 := (y 0).isLt; have h2 : (y 2).val < 64 := (y 2).isLt; omega⟩ : Fin 1024)) :=
  (congrArg (k0_pay3 x0 x1) (eq_ix3 y)).trans (ProjPayload.pay_q x0 x1 (y 0) (y 1) (y 2))

/-- WHAT POINT `t` WRITES BACK to the query array is block `t` of the head-split query projection. -/
theorem flushed_q (c : Dev nD) (t : Fin cfg0.N) :
    (dat0 (F := Ideal) V c).flushed 3 t
      = ((cfg0.win 3).blk t).view.read (Elt Ideal) (projHeads (V c main_arg0) (V c main_v0) 0 (by omega)) := by
  show (cfg0.win 3).cut (grid0.coords t) ((dat0 V c).after 3 t) = _
  rw [after0_3]
  unfold out0_3
  rw [View.canon_unit_zero hz3]
  simp only [View.ld_unit_zero (S := S1x256x1024) hz3, View.ld_unit_zero (S := S1024x1024) hz2]
  funext y
  show k0_pay3 (iblk0 V c 0 t) (iblk0 V c 1 t) y
    = projHeads (V c main_arg0) (V c main_v0) 0 (by omega) (((cfg0.win 3).blk t).view.emb y)
  obtain ⟨-, -, -, -, -, -, -, -, -, e2, e4, e5⟩ := idx_facts t
  have f0 : win0_3.index t (0 : Fin 3) = win0_3.index t (0 : Fin 3) := rfl
  have f1 : win0_3.index t (1 : Fin 3) = win0_3.index t (1 : Fin 3) := rfl
  have f2 : win0_3.index t (2 : Fin 3) = win0_3.index t (2 : Fin 3) := rfl
  exact entry_eq (V c main_arg0) (V c main_v0) 0 (by omega) (iblk0 V c 0 t) (iblk0 V c 1 t)
    (win0_3.index t (0 : Fin 3)) (win0_3.index t (1 : Fin 3))
    (fun x k h0 h1 h2 => xblk_apply V c t x k h0 h1 h2) (wq_blk_apply V c t) y (((cfg0.win 3).blk t).view.emb y)
    (by show win0_3.index t (0 : Fin 3) * 16 + 1 * (y 0).val = _; omega)
    (by show win0_3.index t (1 : Fin 3) * 256 + 1 * (y 1).val = _; omega)
    (by show win0_3.index t (2 : Fin 3) * 64 + 1 * (y 2).val = _; omega)
    _ (pay_q_at (iblk0 V c 0 t) (iblk0 V c 1 t) y)

/-- An index of the query array is in point `t`'s block iff each coordinate is in the block's range on its axis. -/
theorem mem_blk_q (t : Fin cfg0.N) (i : SHd.Idx) :
    i ∈ ((cfg0.win 3).blk t).view.set ↔ ∀ a : Fin 3, win0_3.index t a * S16x256x64.size a ≤ (i a).val
      ∧ (i a).val < win0_3.index t a * S16x256x64.size a + S16x256x64.size a := by
  show i ∈ ((View.whole main_v2_0).slice (win0_3.rect t)).set ↔ _
  rw [View.set_slice_whole, Rect.mem_set_unit]
  exact Iff.rfl

/-- Every index (bh, l, d) of the query array is in the block of the point with block index (bh / 16, l / 256, 0). -/
theorem cover_q (i : SHd.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val / 16, by omega⟩ ⟨(i 1).val / 256, by omega⟩
  obtain ⟨-, -, -, -, -, -, -, -, -, -, e4, e5⟩ := idx_facts t
  have q0 : win0_3.index t (0 : Fin 3) = (i 0).val / 16 := congrFun ht 0
  have q1 : win0_3.index t (1 : Fin 3) = (i 1).val / 256 := congrFun ht 1
  have q2 : win0_3.index t (2 : Fin 3) = 0 := congrFun ht 2
  refine ⟨t, flush0_3 t, ?_⟩
  rw [mem_blk_q]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE QUERY ARRAY after the region: the head-split query projection of the arrays as the region finds them. -/
theorem proj_q (c : Dev nD) :
    (dat0 (F := Ideal) V c).arrAt 3 cfg0.N = projHeads (V c main_arg0) (V c main_v0) 0 (by omega) :=
  (dat0 V c).arrAt_eq_of_cover 3 (projHeads (V c main_arg0) (V c main_v0) 0 (by omega))
    (fun t _ => flushed_q V c t) (cover_q)

/-! ## The key array (window 4) -/

/-- The payload of the key projection at any index of its block. -/
theorem pay_k_at (x0 : Vec Ideal S1x256x1024 .f32) (x1 : Vec Ideal S1024x2048 .bf16) (y : S16x256x64.Idx) :
    k0_pay4 x0 x1 y = ∑ k : Fin 1024, x0 (ix3 (0 : Fin 1) (y 1) k)
      * x1 (ix2 k (⟨0 + ((y 0).val * 64 + (y 2).val), by have h0 : (y 0).val < 16 := (y 0).isLt; have h2 : (y 2).val < 64 := (y 2).isLt; omega⟩ : Fin 2048)) :=
  (congrArg (k0_pay4 x0 x1) (eq_ix3 y)).trans (ProjPayload.pay_k x0 x1 (y 0) (y 1) (y 2))

/-- WHAT POINT `t` WRITES BACK to the key array is block `t` of the head-split key projection. -/
theorem flushed_k (c : Dev nD) (t : Fin cfg0.N) :
    (dat0 (F := Ideal) V c).flushed 4 t
      = ((cfg0.win 4).blk t).view.read (Elt Ideal) (projHeads (V c main_arg0) (V c main_v1) 0 (by omega)) := by
  show (cfg0.win 4).cut (grid0.coords t) ((dat0 V c).after 4 t) = _
  rw [after0_4]
  unfold out0_4
  rw [View.canon_unit_zero hz3]
  simp only [View.ld_unit_zero (S := S1x256x1024) hz3, View.ld_unit_zero (S := S1024x2048) hz2]
  funext y
  show k0_pay4 (iblk0 V c 0 t) (iblk0 V c 2 t) y
    = projHeads (V c main_arg0) (V c main_v1) 0 (by omega) (((cfg0.win 4).blk t).view.emb y)
  obtain ⟨-, -, -, -, -, -, -, -, -, e2, e4, e5⟩ := idx_facts t
  have f0 : win0_4.index t (0 : Fin 3) = win0_3.index t (0 : Fin 3) := congrFun e4 0
  have f1 : win0_4.index t (1 : Fin 3) = win0_3.index t (1 : Fin 3) := congrFun e4 1
  have f2 : win0_4.index t (2 : Fin 3) = win0_3.index t (2 : Fin 3) := congrFun e4 2
  exact entry_eq (V c main_arg0) (V c main_v1) 0 (by omega) (iblk0 V c 0 t) (iblk0 V c 2 t)
    (win0_3.index t (0 : Fin 3)) (win0_3.index t (1 : Fin 3))
    (fun x k h0 h1 h2 => xblk_apply V c t x k h0 h1 h2) (wkv_blk_apply V c t) y (((cfg0.win 4).blk t).view.emb y)
    (by show win0_4.index t (0 : Fin 3) * 16 + 1 * (y 0).val = _; omega)
    (by show win0_4.index t (1 : Fin 3) * 256 + 1 * (y 1).val = _; omega)
    (by show win0_4.index t (2 : Fin 3) * 64 + 1 * (y 2).val = _; omega)
    _ (pay_k_at (iblk0 V c 0 t) (iblk0 V c 2 t) y)

/-- An index of the key array is in point `t`'s block iff each coordinate is in the block's range on its axis. -/
theorem mem_blk_k (t : Fin cfg0.N) (i : SHd.Idx) :
    i ∈ ((cfg0.win 4).blk t).view.set ↔ ∀ a : Fin 3, win0_4.index t a * S16x256x64.size a ≤ (i a).val
      ∧ (i a).val < win0_4.index t a * S16x256x64.size a + S16x256x64.size a := by
  show i ∈ ((View.whole main_v2_1).slice (win0_4.rect t)).set ↔ _
  rw [View.set_slice_whole, Rect.mem_set_unit]
  exact Iff.rfl

/-- Every index (bh, l, d) of the key array is in the block of the point with block index (bh / 16, l / 256, 0). -/
theorem cover_k (i : SHd.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val / 16, by omega⟩ ⟨(i 1).val / 256, by omega⟩
  obtain ⟨-, -, -, -, -, -, -, -, -, -, e4, e5⟩ := idx_facts t
  have q0 : win0_4.index t (0 : Fin 3) = (i 0).val / 16 := (congrFun e4 0).trans (congrFun ht 0)
  have q1 : win0_4.index t (1 : Fin 3) = (i 1).val / 256 := (congrFun e4 1).trans (congrFun ht 1)
  have q2 : win0_4.index t (2 : Fin 3) = 0 := (congrFun e4 2).trans (congrFun ht 2)
  refine ⟨t, flush0_4 t, ?_⟩
  rw [mem_blk_k]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- THE KEY ARRAY after the region: the head-split key projection of the arrays as the region finds them. -/
theorem proj_k (c : Dev nD) :
    (dat0 (F := Ideal) V c).arrAt 4 cfg0.N = projHeads (V c main_arg0) (V c main_v1) 0 (by omega) :=
  (dat0 V c).arrAt_eq_of_cover 4 (projHeads (V c main_arg0) (V c main_v1) 0 (by omega))
    (fun t _ => flushed_k V c t) (cover_k)

/-! ## The value array (window 5) -/

/-- The payload of the value projection at any index of its block. -/
theorem pay_v_at (x0 : Vec Ideal S1x256x1024 .f32) (x1 : Vec Ideal S1024x2048 .bf16) (y : S16x256x64.Idx) :
    k0_pay5 x0 x1 y = ∑ k : Fin 1024, x0 (ix3 (0 : Fin 1) (y 1) k)
      * x1 (ix2 k (⟨1024 + ((y 0).val * 64 + (y 2).val), by have h0 : (y 0).val < 16 := (y 0).isLt; have h2 : (y 2).val < 64 := (y 2).isLt; omega⟩ : Fin 2048)) :=
  (congrArg (k0_pay5 x0 x1) (eq_ix3 y)).trans (ProjPayload.pay_v x0 x1 (y 0) (y 1) (y 2))

/-- WHAT POINT `t` WRITES BACK to the value array is block `t` of the head-split value projection. -/
theorem flushed_v (c : Dev nD) (t : Fin cfg0.N) :
    (dat0 (F := Ideal) V c).flushed 5 t
      = ((cfg0.win 5).blk t).view.read (Elt Ideal) (projHeads (V c main_arg0) (V c main_v1) 1024 (by omega)) := by
  show (cfg0.win 5).cut (grid0.coords t) ((dat0 V c).after 5 t) = _
  rw [after0_5]
  unfold out0_5
  rw [View.canon_unit_zero hz3]
  simp only [View.ld_unit_zero (S := S1x256x1024) hz3, View.ld_unit_zero (S := S1024x2048) hz2]
  funext y
  show k0_pay5 (iblk0 V c 0 t) (iblk0 V c 2 t) y
    = projHeads (V c main_arg0) (V c main_v1) 1024 (by omega) (((cfg0.win 5).blk t).view.emb y)
  obtain ⟨-, -, -, -, -, -, -, -, -, e2, e4, e5⟩ := idx_facts t
  have f0 : win0_5.index t (0 : Fin 3) = win0_3.index t (0 : Fin 3) := congrFun e5 0
  have f1 : win0_5.index t (1 : Fin 3) = win0_3.index t (1 : Fin 3) := congrFun e5 1
  have f2 : win0_5.index t (2 : Fin 3) = win0_3.index t (2 : Fin 3) := congrFun e5 2
  exact entry_eq (V c main_arg0) (V c main_v1) 1024 (by omega) (iblk0 V c 0 t) (iblk0 V c 2 t)
    (win0_3.index t (0 : Fin 3)) (win0_3.index t (1 : Fin 3))
    (fun x k h0 h1 h2 => xblk_apply V c t x k h0 h1 h2) (wkv_blk_apply V c t) y (((cfg0.win 5).blk t).view.emb y)
    (by show win0_5.index t (0 : Fin 3) * 16 + 1 * (y 0).val = _; omega)
    (by show win0_5.index t (1 : Fin 3) * 256 + 1 * (y 1).val = _; omega)
    (by show win0_5.index t (2 : Fin 3) * 64 + 1 * (y 2).val = _; omega)
    _ (pay_v_at (iblk0 V c 0 t) (iblk0 V c 2 t) y)

/-- An index of the value array is in point `t`'s block iff each coordinate is in the block's range on its axis. -/
theorem mem_blk_v (t : Fin cfg0.N) (i : SHd.Idx) :
    i ∈ ((cfg0.win 5).blk t).view.set ↔ ∀ a : Fin 3, win0_5.index t a * S16x256x64.size a ≤ (i a).val
      ∧ (i a).val < win0_5.index t a * S16x256x64.size a + S16x256x64.size a := by
  show i ∈ ((View.whole main_v2_2).slice (win0_5.rect t)).set ↔ _
  rw [View.set_slice_whole, Rect.mem_set_unit]
  exact Iff.rfl

/-- Every index (bh, l, d) of the value array is in the block of the point with block index (bh / 16, l / 256, 0). -/
theorem cover_v (i : SHd.Idx) :
    ∃ t : Fin cfg0.N, (cfg0.win 5).flush t = true ∧ i ∈ ((cfg0.win 5).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val / 16, by omega⟩ ⟨(i 1).val / 256, by omega⟩
  obtain ⟨-, -, -, -, -, -, -, -, -, -, e4, e5⟩ := idx_facts t
  have q0 : win0_5.index t (0 : Fin 3) = (i 0).val / 16 := (congrFun e5 0).trans (congrFun ht 0)
  have q1 : win0_5.index t (1 : Fin 3) = (i 1).val / 256 := (congrFun e5 1).trans (congrFun ht 1)
  have q2 : win0_5.index t (2 : Fin 3) = 0 := (congrFun e5 2).trans (congrFun ht 2)
  refine ⟨t, flush0_5 t, ?_⟩
  rw [mem_blk_v]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

/-- THE VALUE ARRAY after the region: the head-split value projection of the arrays as the region finds them. -/
theorem proj_v (c : Dev nD) :
    (dat0 (F := Ideal) V c).arrAt 5 cfg0.N = projHeads (V c main_arg0) (V c main_v1) 1024 (by omega) :=
  (dat0 V c).arrAt_eq_of_cover 5 (projHeads (V c main_arg0) (V c main_v1) 1024 (by omega))
    (fun t _ => flushed_v V c t) (cover_v)

end Cert.KernelIdeal.ProjValue

end
-- ==== Proof.AttnPayload.lean ====
/-
  The attention kernel's stored value, read at an index.

  For head h, query row r and output channel d the body forms the 2048 scores of the row — the inner
  product of the query row with each key row over the head's 64 channels, times 1/8 —, subtracts their
  maximum, exponentiates, divides by the sum of the exponentials and takes the weighted sum of channel d of
  the 2048 value rows: the softmax of the scores applied to the values.
-/
import proofs.«167473_j43894565765797_2_alg».proof.Proof.Gen.KernelIdeal.Skeleton
import proofs.«167473_j43894565765797_2_alg».proof.Proof.AttnSpec
import Idealize.ShloMosaic.Lib.Pipeline.Value
import Idealize.ShloMosaic.Lib.ValueIdx
import Idealize.ShloMosaic.PureOps.Ideal.Laws

noncomputable section

namespace Cert.KernelIdeal.AttnPayload

open Idealize.ShloMosaic Idealize.ShloMosaic.ValueIdx Idealize.SL.Sem
open Cert.KernelIdeal Cert.KernelIdeal.Gen Cert.AttnSpec

/-! ## The two batched products at an index

The operand indices of a batched product at an output index and a contraction coordinate, axis by axis: a batch axis and
a free axis read the output index's coordinate, the contracted axis reads the contraction coordinate. -/

theorem qk_lhs0 (i : S16x64x2048.Idx) (q : dot_S16x64x64_S16x2048x64_S16x64x2048_2_2_1_1_0_0.contr.Idx) :
    (dot_S16x64x64_S16x2048x64_S16x64x2048_2_2_1_1_0_0.lhsIdx i q 0).val = (i 0).val := by
  unfold DotDims.lhsIdx
  rw [dif_pos (show (0 : Fin S16x64x64.rank) ∈ dot_S16x64x64_S16x2048x64_S16x64x2048_2_2_1_1_0_0.lhsBatch by decide)]
  rfl

theorem qk_lhs1 (i : S16x64x2048.Idx) (q : dot_S16x64x64_S16x2048x64_S16x64x2048_2_2_1_1_0_0.contr.Idx) :
    (dot_S16x64x64_S16x2048x64_S16x64x2048_2_2_1_1_0_0.lhsIdx i q 1).val = (i 1).val := by
  unfold DotDims.lhsIdx
  rw [dif_neg (show ¬(1 : Fin S16x64x64.rank) ∈ dot_S16x64x64_S16x2048x64_S16x64x2048_2_2_1_1_0_0.lhsBatch by decide), dif_pos (show (1 : Fin S16x64x64.rank) ∈ dot_S16x64x64_S16x2048x64_S16x64x2048_2_2_1_1_0_0.lhsNonContracting by decide)]
  rfl

theorem qk_lhs2 (i : S16x64x2048.Idx) (q : dot_S16x64x64_S16x2048x64_S16x64x2048_2_2_1_1_0_0.contr.Idx) :
    (dot_S16x64x64_S16x2048x64_S16x64x2048_2_2_1_1_0_0.lhsIdx i q 2).val = (q ⟨0, by decide⟩).val :=
  dot_S16x64x64_S16x2048x64_S16x64x2048_2_2_1_1_0_0.lhsIdx_val_of_single rfl i q

theorem qk_rhs0 (i : S16x64x2048.Idx) (q : dot_S16x64x64_S16x2048x64_S16x64x2048_2_2_1_1_0_0.contr.Idx) :
    (dot_S16x64x64_S16x2048x64_S16x64x2048_2_2_1_1_0_0.rhsIdx i q 0).val = (i 0).val := by
  unfold DotDims.rhsIdx
  rw [dif_pos (show (0 : Fin S16x2048x64.rank) ∈ dot_S16x64x64_S16x2048x64_S16x64x2048_2_2_1_1_0_0.rhsBatch by decide)]
  rfl

theorem qk_rhs1 (i : S16x64x2048.Idx) (q : dot_S16x64x64_S16x2048x64_S16x64x2048_2_2_1_1_0_0.contr.Idx) :
    (dot_S16x64x64_S16x2048x64_S16x64x2048_2_2_1_1_0_0.rhsIdx i q 1).val = (i 2).val := by
  unfold DotDims.rhsIdx
  rw [dif_neg (show ¬(1 : Fin S16x2048x64.rank) ∈ dot_S16x64x64_S16x2048x64_S16x64x2048_2_2_1_1_0_0.rhsBatch by decide), dif_pos (show (1 : Fin S16x2048x64.rank) ∈ dot_S16x64x64_S16x2048x64_S16x64x2048_2_2_1_1_0_0.rhsNonContracting by decide)]
  rfl

theorem qk_rhs2 (i : S16x64x2048.Idx) (q : dot_S16x64x64_S16x2048x64_S16x64x2048_2_2_1_1_0_0.contr.Idx) :
    (dot_S16x64x64_S16x2048x64_S16x64x2048_2_2_1_1_0_0.rhsIdx i q 2).val = (q ⟨0, by decide⟩).val :=
  dot_S16x64x64_S16x2048x64_S16x64x2048_2_2_1_1_0_0.rhsIdx_val_of_single rfl i q

theorem pv_lhs0 (i : S16x64x64.Idx) (q : dot_S16x64x2048_S16x2048x64_S16x64x64_2_1_1_2_0_0.contr.Idx) :
    (dot_S16x64x2048_S16x2048x64_S16x64x64_2_1_1_2_0_0.lhsIdx i q 0).val = (i 0).val := by
  unfold DotDims.lhsIdx
  rw [dif_pos (show (0 : Fin S16x64x2048.rank) ∈ dot_S16x64x2048_S16x2048x64_S16x64x64_2_1_1_2_0_0.lhsBatch by decide)]
  rfl

theorem pv_lhs1 (i : S16x64x64.Idx) (q : dot_S16x64x2048_S16x2048x64_S16x64x64_2_1_1_2_0_0.contr.Idx) :
    (dot_S16x64x2048_S16x2048x64_S16x64x64_2_1_1_2_0_0.lhsIdx i q 1).val = (i 1).val := by
  unfold DotDims.lhsIdx
  rw [dif_neg (show ¬(1 : Fin S16x64x2048.rank) ∈ dot_S16x64x2048_S16x2048x64_S16x64x64_2_1_1_2_0_0.lhsBatch by decide), dif_pos (show (1 : Fin S16x64x2048.rank) ∈ dot_S16x64x2048_S16x2048x64_S16x64x64_2_1_1_2_0_0.lhsNonContracting by decide)]
  rfl

theorem pv_lhs2 (i : S16x64x64.Idx) (q : dot_S16x64x2048_S16x2048x64_S16x64x64_2_1_1_2_0_0.contr.Idx) :
    (dot_S16x64x2048_S16x2048x64_S16x64x64_2_1_1_2_0_0.lhsIdx i q 2).val = (q ⟨0, by decide⟩).val :=
  dot_S16x64x2048_S16x2048x64_S16x64x64_2_1_1_2_0_0.lhsIdx_val_of_single rfl i q

theorem pv_rhs0 (i : S16x64x64.Idx) (q : dot_S16x64x2048_S16x2048x64_S16x64x64_2_1_1_2_0_0.contr.Idx) :
    (dot_S16x64x2048_S16x2048x64_S16x64x64_2_1_1_2_0_0.rhsIdx i q 0).val = (i 0).val := by
  unfold DotDims.rhsIdx
  rw [dif_pos (show (0 : Fin S16x2048x64.rank) ∈ dot_S16x64x2048_S16x2048x64_S16x64x64_2_1_1_2_0_0.rhsBatch by decide)]
  rfl

theorem pv_rhs1 (i : S16x64x64.Idx) (q : dot_S16x64x2048_S16x2048x64_S16x64x64_2_1_1_2_0_0.contr.Idx) :
    (dot_S16x64x2048_S16x2048x64_S16x64x64_2_1_1_2_0_0.rhsIdx i q 1).val = (q ⟨0, by decide⟩).val :=
  dot_S16x64x2048_S16x2048x64_S16x64x64_2_1_1_2_0_0.rhsIdx_val_of_single rfl i q

theorem pv_rhs2 (i : S16x64x64.Idx) (q : dot_S16x64x2048_S16x2048x64_S16x64x64_2_1_1_2_0_0.contr.Idx) :
    (dot_S16x64x2048_S16x2048x64_S16x64x64_2_1_1_2_0_0.rhsIdx i q 2).val = (i 2).val := by
  unfold DotDims.rhsIdx
  rw [dif_neg (show ¬(2 : Fin S16x2048x64.rank) ∈ dot_S16x64x2048_S16x2048x64_S16x64x64_2_1_1_2_0_0.rhsBatch by decide), dif_pos (show (2 : Fin S16x2048x64.rank) ∈ dot_S16x64x2048_S16x2048x64_S16x64x64_2_1_1_2_0_0.rhsNonContracting by decide)]
  rfl

/-- Queries times keys, contracted over the head's 64 channels, head by head: at (h, r, k) the inner product of
    query row r with key row k. -/
theorem qk_apply (x0 : FVec Ideal S16x64x64 .bf16) (x1 : FVec Ideal S16x2048x64 .bf16) (h' : Fin 16) (r : Fin 64) (k : Fin 2048) :
    matmul dot_S16x64x64_S16x2048x64_S16x64x2048_2_2_1_1_0_0 none x0 x1 (constant (F := Ideal) S16x64x2048 .f32 0x00000000#32) (ix3 h' r k)
      = ∑ d' : Fin 64, x0 (ix3 h' r d') * x1 (ix3 h' k d') := by
  simp only [matmul]
  rw [Ideal.matmul_constant_zero_apply, ← Equiv.sum_comp (contrEquiv1 dot_S16x64x64_S16x2048x64_S16x64x2048_2_2_1_1_0_0 64 rfl rfl).symm]
  refine Finset.sum_congr rfl fun d' _ => ?_
  have hk := contrEquiv1_symm_val dot_S16x64x64_S16x2048x64_S16x64x2048_2_2_1_1_0_0 64 rfl rfl d'
  have el : dot_S16x64x64_S16x2048x64_S16x64x2048_2_2_1_1_0_0.lhsIdx (ix3 h' r k) ((contrEquiv1 dot_S16x64x64_S16x2048x64_S16x64x2048_2_2_1_1_0_0 64 rfl rfl).symm d') = ix3 h' r d' := funext fun a => Fin.ext (by
    match a with
    | ⟨0, _⟩ => exact qk_lhs0 _ _
    | ⟨1, _⟩ => exact qk_lhs1 _ _
    | ⟨2, _⟩ => exact (qk_lhs2 _ _).trans hk)
  have er : dot_S16x64x64_S16x2048x64_S16x64x2048_2_2_1_1_0_0.rhsIdx (ix3 h' r k) ((contrEquiv1 dot_S16x64x64_S16x2048x64_S16x64x2048_2_2_1_1_0_0 64 rfl rfl).symm d') = ix3 h' k d' := funext fun a => Fin.ext (by
    match a with
    | ⟨0, _⟩ => exact qk_rhs0 _ _
    | ⟨1, _⟩ => exact qk_rhs1 _ _
    | ⟨2, _⟩ => exact (qk_rhs2 _ _).trans hk)
  rw [el, er]

/-- Weights times values, contracted over the 2048 keys, head by head: at (h, r, d) the weights of query row r
    applied to column d of the values. -/
theorem pv_apply (w : FVec Ideal S16x64x2048 .bf16) (x2 : FVec Ideal S16x2048x64 .bf16) (h' : Fin 16) (r : Fin 64) (d : Fin 64) :
    matmul dot_S16x64x2048_S16x2048x64_S16x64x64_2_1_1_2_0_0 none w x2 (constant (F := Ideal) S16x64x64 .f32 0x00000000#32) (ix3 h' r d)
      = ∑ k : Fin 2048, w (ix3 h' r k) * x2 (ix3 h' k d) := by
  simp only [matmul]
  rw [Ideal.matmul_constant_zero_apply, ← Equiv.sum_comp (contrEquiv1 dot_S16x64x2048_S16x2048x64_S16x64x64_2_1_1_2_0_0 2048 rfl rfl).symm]
  refine Finset.sum_congr rfl fun k _ => ?_
  have hk := contrEquiv1_symm_val dot_S16x64x2048_S16x2048x64_S16x64x64_2_1_1_2_0_0 2048 rfl rfl k
  have el : dot_S16x64x2048_S16x2048x64_S16x64x64_2_1_1_2_0_0.lhsIdx (ix3 h' r d) ((contrEquiv1 dot_S16x64x2048_S16x2048x64_S16x64x64_2_1_1_2_0_0 2048 rfl rfl).symm k) = ix3 h' r k := funext fun a => Fin.ext (by
    match a with
    | ⟨0, _⟩ => exact pv_lhs0 _ _
    | ⟨1, _⟩ => exact pv_lhs1 _ _
    | ⟨2, _⟩ => exact (pv_lhs2 _ _).trans hk)
  have er : dot_S16x64x2048_S16x2048x64_S16x64x64_2_1_1_2_0_0.rhsIdx (ix3 h' r d) ((contrEquiv1 dot_S16x64x2048_S16x2048x64_S16x64x64_2_1_1_2_0_0 2048 rfl rfl).symm k) = ix3 h' k d := funext fun a => Fin.ext (by
    match a with
    | ⟨0, _⟩ => exact pv_rhs0 _ _
    | ⟨1, _⟩ => exact (pv_rhs1 _ _).trans hk
    | ⟨2, _⟩ => exact pv_rhs2 _ _)
  rw [el, er]

/-! ## The row reductions and the keep-dims broadcast at an index -/

/-- The maximum over the keys, from −∞: at (h, r) the largest score of query row r. -/
theorem rowMax_apply (s : FVec Ideal S16x64x2048 .f32) (hr : S16x64x2048.Reduces [2] S16x64) (hφ : FKind.Formats .f32)
    (hacc : (0xFF800000#32 : BitVec FTy.f32.bits) = FKind.maximumf.neutral .f32 hφ) (h' : Fin 16) (r : Fin 64) :
    multiReduction (F := Ideal) .maximumf [2] S16x64 s 0xFF800000#32 hr hφ hacc (ix2 h' r) = rowMax (fun k => s (ix3 h' r k)) := by
  refine (Ideal.multiReduction_maximumf_single s _ hr hφ hacc (ix2 h' r)).trans ?_
  unfold rowMax
  refine congrArg (fun f => (Finset.univ : Finset (Fin 2048)).fold max negInf f) (funext fun k => congrArg s (funext fun a => Fin.ext ?_))
  match a with
  | ⟨0, _⟩ => rfl
  | ⟨1, _⟩ => rfl
  | ⟨2, _⟩ => rfl

/-- The sum over the keys: at (h, r) the sum of row r. -/
theorem rowSum_apply (s : FVec Ideal S16x64x2048 .f32) (hr : S16x64x2048.Reduces [2] S16x64) (hφ : FKind.Formats .f32)
    (hacc : (0x00000000#32 : BitVec FTy.f32.bits) = FKind.add.neutral .f32 hφ) (h' : Fin 16) (r : Fin 64) :
    multiReduction (F := Ideal) .add [2] S16x64 s 0x00000000#32 hr hφ hacc (ix2 h' r) = ∑ k : Fin 2048, s (ix3 h' r k) := by
  refine (Ideal.multiReduction_add_single s _ hr hφ hacc (ix2 h' r)).trans ?_
  refine Finset.sum_congr rfl fun k _ => congrArg s (funext fun a => Fin.ext ?_)
  match a with
  | ⟨0, _⟩ => rfl
  | ⟨1, _⟩ => rfl
  | ⟨2, _⟩ => rfl

/-- A per-row value given a unit last axis and spread along the keys reads, at (h, r, k), the value of row (h, r). -/
theorem keepdims_apply (v : FVec Ideal S16x64 .f32) (hc : S16x64.ShapeCasts S16x64x1) (hb : S16x64x1.Broadcasts S16x64x2048)
    (h' : Fin 16) (r : Fin 64) (k : Fin 2048) :
    broadcastTo S16x64x2048 (shapeCast S16x64x1 v hc) hb (ix3 h' r k) = v (ix2 h' r) := by
  refine (broadcastTo_apply _ hb (ix3 h' r k) (ix3 h' r (0 : Fin 1)) (fun a => ?_)).trans ?_
  · match a with
    | ⟨0, _⟩ => rfl
    | ⟨1, _⟩ => rfl
    | ⟨2, _⟩ => rfl
  · refine shapeCast_apply v hc (ix3 h' r (0 : Fin 1)) (ix2 h' r) ?_
    rw [Shape.rowMajor_val_two, Shape.rowMajor_val_three]
    show h'.val * 64 + r.val = (h'.val * 64 + r.val) * 1 + 0
    omega

/-! ## The softmax of a block of scores applied to the values -/

/-- The scores less their row's maximum, exponentiated: at (h, r, k) the exponential of score k of row r less the
    row's largest score. -/
theorem shiftExp_apply (s : FVec Ideal S16x64x2048 .f32) (hr : S16x64x2048.Reduces [2] S16x64) (hφ : FKind.Formats .f32)
    (hacc : (0xFF800000#32 : BitVec FTy.f32.bits) = FKind.maximumf.neutral .f32 hφ)
    (hc : S16x64.ShapeCasts S16x64x1) (hb : S16x64x1.Broadcasts S16x64x2048) (h' : Fin 16) (r : Fin 64) (k : Fin 2048) :
    exp (subf s (broadcastTo S16x64x2048 (shapeCast S16x64x1 (multiReduction (F := Ideal) .maximumf [2] S16x64 s 0xFF800000#32 hr hφ hacc) hc) hb)) (ix3 h' r k)
      = Ideal.exp (s (ix3 h' r k) - rowMax (fun k' => s (ix3 h' r k'))) := by
  show Ideal.exp (s (ix3 h' r k) - broadcastTo S16x64x2048 (shapeCast S16x64x1 (multiReduction (F := Ideal) .maximumf [2] S16x64 s 0xFF800000#32 hr hφ hacc) hc) hb (ix3 h' r k)) = _
  rw [keepdims_apply, rowMax_apply]

/-- A block divided by its row sums: at (h, r, k) entry k of row r over the sum of row r. -/
theorem normalize_apply (e : FVec Ideal S16x64x2048 .f32) (hr : S16x64x2048.Reduces [2] S16x64) (hφ : FKind.Formats .f32)
    (hacc : (0x00000000#32 : BitVec FTy.f32.bits) = FKind.add.neutral .f32 hφ)
    (hc : S16x64.ShapeCasts S16x64x1) (hb : S16x64x1.Broadcasts S16x64x2048) (h' : Fin 16) (r : Fin 64) (k : Fin 2048) :
    divf e (broadcastTo S16x64x2048 (shapeCast S16x64x1 (multiReduction (F := Ideal) .add [2] S16x64 e 0x00000000#32 hr hφ hacc) hc) hb) (ix3 h' r k)
      = Ideal.div (e (ix3 h' r k)) (∑ k' : Fin 2048, e (ix3 h' r k')) := by
  show Ideal.div (e (ix3 h' r k)) (broadcastTo S16x64x2048 (shapeCast S16x64x1 (multiReduction (F := Ideal) .add [2] S16x64 e 0x00000000#32 hr hφ hacc) hc) hb (ix3 h' r k)) = _
  rw [keepdims_apply, rowSum_apply]

/-- The body's softmax and weighted sum over any block of scores `s`: at (h, r, d) it is `attnCore` of row r of the
    scores and column d of the values. -/
theorem softmax_apply (s : FVec Ideal S16x64x2048 .f32) (x2 : FVec Ideal S16x2048x64 .bf16)
    (hr : S16x64x2048.Reduces [2] S16x64) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : S16x64.ShapeCasts S16x64x1) (hb : S16x64x1.Broadcasts S16x64x2048) (hlt : FTy.bf16.bits < FTy.f32.bits)
    (h' : Fin 16) (r : Fin 64) (d : Fin 64) :
    matmul dot_S16x64x2048_S16x2048x64_S16x64x64_2_1_1_2_0_0 none
        (truncf .bf16
          (divf
            (exp (subf s (broadcastTo S16x64x2048 (shapeCast S16x64x1 (multiReduction (F := Ideal) .maximumf [2] S16x64 s 0xFF800000#32 hr hφ hmax) hc) hb)))
            (broadcastTo S16x64x2048 (shapeCast S16x64x1 (multiReduction (F := Ideal) .add [2] S16x64
              (exp (subf s (broadcastTo S16x64x2048 (shapeCast S16x64x1 (multiReduction (F := Ideal) .maximumf [2] S16x64 s 0xFF800000#32 hr hφ hmax) hc) hb)))
              0x00000000#32 hr hφ hadd) hc) hb))
          hlt)
        x2 (constant (F := Ideal) S16x64x64 .f32 0x00000000#32) (ix3 h' r d)
      = attnCore (fun k => s (ix3 h' r k)) (fun k => x2 (ix3 h' k d)) := by
  refine (pv_apply _ x2 h' r d).trans ?_
  unfold attnCore
  refine Finset.sum_congr rfl fun k _ => ?_
  refine congrArg (· * x2 (ix3 h' k d)) ?_
  refine (normalize_apply _ hr hφ hadd hc hb h' r k).trans ?_
  exact congrArg₂ Ideal.div (shiftExp_apply s hr hφ hmax hc hb h' r k)
    (Finset.sum_congr rfl fun k' _ => shiftExp_apply s hr hφ hmax hc hb h' r k')

/-! ## The stored value -/

/-- The block the body stores, at (h, r, d): `attnCore` of the row's scaled scores — the inner products of query row r
    with the key rows, times 1/8 — and of column d of the values. -/
theorem pay_attn (x0 : Vec Ideal S16x64x64 .bf16) (x1 x2 : Vec Ideal S16x2048x64 .bf16) (h' : Fin 16) (r d : Fin 64) :
    k1_pay1 x0 x1 x2 (ix3 h' r d)
      = attnCore (fun k => (∑ d' : Fin 64, x0 (ix3 h' r d') * x1 (ix3 h' k d')) * scale) (fun k => x2 (ix3 h' k d)) := by
  unfold k1_pay1
  simp only [shapeCast_self]
  refine (softmax_apply _ x2 _ _ _ _ _ _ _ h' r d).trans ?_
  refine congrArg (fun s => attnCore s (fun k => x2 (ix3 h' k d))) (funext fun k => ?_)
  show matmul dot_S16x64x64_S16x2048x64_S16x64x2048_2_2_1_1_0_0 none x0 x1 (constant (F := Ideal) S16x64x2048 .f32 0x00000000#32) (ix3 h' r k) * scale = _
  rw [qk_apply]

end Cert.KernelIdeal.AttnPayload

end
-- ==== Proof.AttnValue.lean ====
/-
  The attention region's output array, for any contents of the arrays on entry.

  The region runs over a grid of 4 × 32 points.  Point (b, qi) reads the block of 16 heads × 64 query rows
  × 64 channels of Q at block position (b, qi, 0), the blocks of 16 heads × all 2048 rows × 64 channels of K
  and of V at block position (b, 0, 0), and writes one block of 16 × 64 × 64 of the output at block position
  (b, qi, 0).  Entry (h', r, d) of a block at block position (b, qi, 0) is entry
  (16 b + h', 64 qi + r, d) of the array, so what the point writes — the softmax of the row's scores applied
  to the values, over the blocks — is the block of `attnHeads Q K V` at that position: the inner products and
  the value column it reads are those of head 16 b + h' of the arrays.  The 4 × 32 output blocks tile the
  array [64, 2048, 64] (the block holding (bh, l, d) is the one at (bh / 16, l / 64, 0)), so the array ends
  holding `attnHeads Q K V` everywhere.
-/
import proofs.«167473_j43894565765797_2_alg».proof.Proof.Gen.KernelIdeal.Frame
import proofs.«167473_j43894565765797_2_alg».proof.Proof.AttnSpec
import proofs.«167473_j43894565765797_2_alg».proof.Proof.AttnPayload
import Idealize.ShloMosaic.Lib.Pipeline.Value
import Idealize.ShloMosaic.Lib.ValueIdx

noncomputable section

namespace Cert.KernelIdeal.AttnValue

open Idealize.ShloMosaic Idealize.ShloMosaic.TcCoe Idealize.SL.Sem Idealize.ShloMosaic.ValueIdx
open Cert.KernelIdeal Cert.KernelIdeal.Gen Cert.AttnSpec

variable (V : (c : Dev nD) → (b : Ref sig .tc) → Buf (Elt Ideal) ((c : Thread nD τ).loc b))

/-- The body's loads and its store start at the origin of their blocks. -/
theorem zero_offset : (![0, 0, 0] : Fin 3 → Nat) = fun _ => 0 := funext fun a => by fin_cases a <;> rfl

/-- Where each block sits, decided over the grid: Q's block is at the output block's position; K's and V's blocks
    are at the output block's first coordinate and span the whole of the other two axes; the output block's
    position is (b, qi, 0) with b ≤ 3 and qi ≤ 31. -/
theorem block_positions : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 3
    ∧ win1_3.index t (1 : Fin 3) ≤ 31
    ∧ win1_3.index t (2 : Fin 3) = 0 :=
  (by decide +kernel : ∀ t : Fin grid1.N, _)

/-- Every block position (b, qi, 0) of the output is some grid point's. -/
theorem every_block_written : ∀ (b : Fin 4) (qi : Fin 32), ∃ t : Fin cfg1.N, win1_3.index t = ![b.val, qi.val, 0] :=
  (by decide +kernel : ∀ (b : Fin 4) (qi : Fin 32), ∃ t : Fin grid1.N, win1_3.index t = ![b.val, qi.val, 0])

/-- One entry of a written block.  If the Q block's row (h', r, ·) is row (bh, q, ·) of an array `Q`, the K block's
    head h' is head bh of `K`, and the V block's column (h', ·, d) is column (bh, ·, d) of `W`, then the body's value at
    (h', r, d) is attention over the arrays at (bh, q, d): both are the softmax of the same 2048 scores applied
    to the same 2048 values. -/
theorem block_entry (x0 : Vec Ideal S16x64x64 .bf16) (x1 x2 : Vec Ideal S16x2048x64 .bf16) (Q K W : SHd.Idx → EReal)
    (y : S16x64x64.Idx) (i : SHd.Idx) (h' : Fin 16) (r d : Fin 64) (bh : Fin 64) (q : Fin 2048)
    (hy : y = ix3 h' r d) (hi : i = ix3 bh q d)
    (hq : ∀ d' : Fin 64, x0 (ix3 h' r d') = Q (ix3 bh q d'))
    (hk : ∀ (k : Fin 2048) (d' : Fin 64), x1 (ix3 h' k d') = K (ix3 bh k d'))
    (hv : ∀ k : Fin 2048, x2 (ix3 h' k d) = W (ix3 bh k d)) :
    k1_pay1 x0 x1 x2 y = attnHeads Q K W i := by
  subst hy hi
  rw [AttnPayload.pay_attn]
  show _ = attnCore (fun k => scoreAt Q K bh q k) (fun k => W (ix3 bh k d))
  unfold scoreAt
  simp only [hq, hk, hv]

/-- What grid point `t` writes back is block `t` of attention over the arrays as the region finds them: entry
    (h', r, d) of a block at position (b, qi, 0) is entry (16 b + h', 64 qi + r, d) of its array, and K's and V's
    blocks hold all 2048 rows of heads 16 b … 16 b + 15. -/
theorem written_block (c : Dev nD) (t : Fin cfg1.N) :
    (dat1 (F := Ideal) V c).flushed 3 t
      = ((cfg1.win 3).blk t).view.read (Elt Ideal) (attnHeads (V c main_v2_0) (V c main_v2_1) (V c main_v2_2)) := by
  show (cfg1.win 3).cut (grid1.coords t) ((dat1 V c).after 3 t) = _
  rw [after1_3]
  unfold out1_3
  rw [View.canon_unit_zero zero_offset]
  simp only [View.ld_unit_zero (S := S16x64x64) zero_offset, View.ld_unit_zero (S := S16x2048x64) zero_offset]
  obtain ⟨e00, e01, e02, e10, e11, e12, e20, e21, e22, b0, b1, b2⟩ := block_positions t
  funext y
  show k1_pay1 (iblk1 V c 0 t) (iblk1 V c 1 t) (iblk1 V c 2 t) y
    = attnHeads (V c main_v2_0) (V c main_v2_1) (V c main_v2_2) (((cfg1.win 3).blk t).view.emb y)
  have hy0 : (y 0).val < 16 := (y 0).isLt
  have hy1 : (y 1).val < 64 := (y 1).isLt
  have hy2 : (y 2).val < 64 := (y 2).isLt
  refine block_entry _ _ _ _ _ _ y _ (y 0) (y 1) (y 2)
    (⟨win1_3.index t (0 : Fin 3) * 16 + (y 0).val, by omega⟩ : Fin 64)
    (⟨win1_3.index t (1 : Fin 3) * 64 + (y 1).val, by omega⟩ : Fin 2048) (eq_ix3 y) ?_ ?_ ?_ ?_
  · -- the output block's entry in the array
    funext a; apply Fin.ext
    match a with
    | ⟨0, _⟩ => show win1_3.index t (0 : Fin 3) * 16 + 1 * (y 0).val = win1_3.index t (0 : Fin 3) * 16 + (y 0).val; omega
    | ⟨1, _⟩ => show win1_3.index t (1 : Fin 3) * 64 + 1 * (y 1).val = win1_3.index t (1 : Fin 3) * 64 + (y 1).val; omega
    | ⟨2, _⟩ => show win1_3.index t (2 : Fin 3) * 64 + 1 * (y 2).val = (y 2).val; omega
  · -- the query row
    intro d'
    show V c main_v2_0 (((cfg1.win 0).blk t).view.emb (ix3 (y 0) (y 1) d')) = V c main_v2_0 _
    refine congrArg (V c main_v2_0) ?_
    funext a; apply Fin.ext
    match a with
    | ⟨0, _⟩ => show win1_0.index t (0 : Fin 3) * 16 + 1 * (y 0).val = win1_3.index t (0 : Fin 3) * 16 + (y 0).val; omega
    | ⟨1, _⟩ => show win1_0.index t (1 : Fin 3) * 64 + 1 * (y 1).val = win1_3.index t (1 : Fin 3) * 64 + (y 1).val; omega
    | ⟨2, _⟩ => show win1_0.index t (2 : Fin 3) * 64 + 1 * d'.val = d'.val; omega
  · -- the key rows
    intro k d'
    show V c main_v2_1 (((cfg1.win 1).blk t).view.emb (ix3 (y 0) k d')) = V c main_v2_1 _
    refine congrArg (V c main_v2_1) ?_
    funext a; apply Fin.ext
    match a with
    | ⟨0, _⟩ => show win1_1.index t (0 : Fin 3) * 16 + 1 * (y 0).val = win1_3.index t (0 : Fin 3) * 16 + (y 0).val; omega
    | ⟨1, _⟩ => show win1_1.index t (1 : Fin 3) * 2048 + 1 * k.val = k.val; omega
    | ⟨2, _⟩ => show win1_1.index t (2 : Fin 3) * 64 + 1 * d'.val = d'.val; omega
  · -- the value column
    intro k
    show V c main_v2_2 (((cfg1.win 2).blk t).view.emb (ix3 (y 0) k (y 2))) = V c main_v2_2 _
    refine congrArg (V c main_v2_2) ?_
    funext a; apply Fin.ext
    match a with
    | ⟨0, _⟩ => show win1_2.index t (0 : Fin 3) * 16 + 1 * (y 0).val = win1_3.index t (0 : Fin 3) * 16 + (y 0).val; omega
    | ⟨1, _⟩ => show win1_2.index t (1 : Fin 3) * 2048 + 1 * k.val = k.val; omega
    | ⟨2, _⟩ => show win1_2.index t (2 : Fin 3) * 64 + 1 * (y 2).val = (y 2).val; omega

/-- An index of the output array is in point `t`'s block iff each coordinate is in the block's range on its axis. -/
theorem mem_output_block (t : Fin cfg1.N) (i : S64x2048x64.Idx) :
    i ∈ ((cfg1.win 3).blk t).view.set ↔ ∀ a : Fin 3, win1_3.index t a * S16x64x64.size a ≤ (i a).val ∧ (i a).val < win1_3.index t a * S16x64x64.size a + S16x64x64.size a := by
  show i ∈ ((View.whole main_v3).slice (win1_3.rect t)).set ↔ _
  rw [View.set_slice_whole, Rect.mem_set_unit]
  exact Iff.rfl

/-- The output blocks cover the array: (bh, l, d) lies in the block at position (bh / 16, l / 64, 0). -/
theorem blocks_cover (i : S64x2048x64.Idx) :
    ∃ t : Fin cfg1.N, (cfg1.win 3).flush t = true ∧ i ∈ ((cfg1.win 3).blk t).view.set := by
  have hi0 : (i 0).val < 64 := (i 0).isLt
  have hi1 : (i 1).val < 2048 := (i 1).isLt
  have hi2 : (i 2).val < 64 := (i 2).isLt
  obtain ⟨t, ht⟩ := every_block_written ⟨(i 0).val / 16, by omega⟩ ⟨(i 1).val / 64, by omega⟩
  have q0 : win1_3.index t (0 : Fin 3) = (i 0).val / 16 := congrFun ht 0
  have q1 : win1_3.index t (1 : Fin 3) = (i 1).val / 64 := congrFun ht 1
  have q2 : win1_3.index t (2 : Fin 3) = 0 := congrFun ht 2
  refine ⟨t, flush1_3 t, ?_⟩
  rw [mem_output_block]
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 64 ≤ (i 1).val ∧ (i 1).val < win1_3.index t (1 : Fin 3) * 64 + 64; omega
  | ⟨2, _⟩ => show win1_3.index t (2 : Fin 3) * 64 ≤ (i 2).val ∧ (i 2).val < win1_3.index t (2 : Fin 3) * 64 + 64; omega

/-- The output array after the region: attention over the three head-split arrays as the region finds them. -/
theorem attn_out (c : Dev nD) :
    (dat1 (F := Ideal) V c).arrAt 3 cfg1.N = attnHeads (V c main_v2_0) (V c main_v2_1) (V c main_v2_2) :=
  (dat1 (F := Ideal) V c).arrAt_eq_of_cover 3 (attnHeads (V c main_v2_0) (V c main_v2_1) (V c main_v2_2))
    (fun t _ => written_block V c t) blocks_cover

end Cert.KernelIdeal.AttnValue

end
-- ==== Proof.KernelValue.lean ====
/-
  The idealized kernel's result as one function of its three arguments.

  Chaining the boundaries of the run: the result buffer is the two reshapes of the attention region's
  output array; that array is `attnHeads` of the three arrays the region reads; those are the projection
  region's output arrays, each `projHeads` of the input and of a weight matrix after its change of float
  format — which at the exact reading is the identity.  So the result is the two reshapes of `kerOut` of the
  arguments.
-/
import proofs.«167473_j43894565765797_2_alg».proof.Proof.KernelRun
import proofs.«167473_j43894565765797_2_alg».proof.Proof.AttnSpec
import proofs.«167473_j43894565765797_2_alg».proof.Proof.ProjValue
import proofs.«167473_j43894565765797_2_alg».proof.Proof.AttnValue

noncomputable section

namespace Cert.KernelIdeal.KernelValue

open Idealize.ShloMosaic Idealize.ShloMosaic.TcCoe Idealize.SL.Sem
open Cert.KernelIdeal Cert.KernelIdeal.Gen Cert.AttnSpec

variable (m : (ℓ : Loc nD τ sig) → Buf (Elt Ideal) ℓ) (ρ : Dev nD → PrngReg)

/-- The last boundary's contents at the result buffer: the head-split attention of the three head-split
    projections of the arguments, read as [4, 16, 2048, 64] and then as [4, 2048, 1024]. -/
theorem result (c : Dev nD) :
    (W4 m ρ c (Proc.devRef .tc main_v5) : S4x2048x1024.Idx → EReal)
      = shapeCast S4x2048x1024 (shapeCast S4x16x2048x64
          (kerOut (m ((c.tc : Thread nD τ).loc main_arg0)) (m ((c.tc : Thread nD τ).loc main_arg1)) (m ((c.tc : Thread nD τ).loc main_arg2)))
          shapeCasts_S64x2048x64_S4x16x2048x64) shapeCasts_S4x16x2048x64_S4x2048x1024 := by
  rw [RunValue.tail_eq, AttnValue.attn_out, RunValue.entry_q, RunValue.entry_k, RunValue.entry_v,
    ProjValue.proj_q, ProjValue.proj_k, ProjValue.proj_v, RunValue.entry_x, RunValue.entry_wq, RunValue.entry_wkv]
  rfl

end Cert.KernelIdeal.KernelValue

end
-- ==== Proof.Consts.lean ====
/-
  The values of the float words the two programs carry, each unfolded here once:
  the word 7F800000 is +∞, the word FF800000 is −∞ (so a maximum started from it is the maximum of the
  entries), and the word 3E000000 is the real number 1/8.
-/
import proofs.«167473_j43894565765797_2_alg».proof.Proof.AttnSpec

noncomputable section

namespace Cert.AttnSpec

open Idealize.ShloMosaic

/-- The word with all exponent bits set, a zero significand and sign 0 denotes +∞. -/
theorem posInf_word : Ideal.ofBits .f32 0x7F800000#32 = (⊤ : EReal) := by
  simp [Ideal.ofBits, Ideal.ieee]

/-- The same word with sign 1 denotes −∞. -/
theorem negInf_eq : negInf = (⊥ : EReal) := by
  simp [negInf, Ideal.ofBits, Ideal.ieee]

/-- A maximum with −∞ is the other operand. -/
theorem max_negInf (y : EReal) : max negInf y = y := by
  rw [negInf_eq]; exact max_bot_left y

/-- The score scale is the real number one eighth. -/
theorem scale_eq : scale = (((1 : ℝ) / 8 : ℝ) : EReal) := by
  simp [scale, Ideal.ofBits, Ideal.ieee, -EReal.coe_mul]; norm_num

end Cert.AttnSpec

end
-- ==== Proof.RefValue.lean ====
/-
  The reference program's attention output, before its last reshape, is the specification `refOut`.

  The reference projects x by Wq and by Wkv, cuts the second projection into its key half (columns 0 … 1023) and its
  value half (columns 1024 … 2047), and views each [4, 2048, 1024] array as [4, 16, 2048, 64] by a reshape of the channel
  axis into (head, channel within the head) followed by a swap of the position and head axes.  Read at (b, h, l, d) each of
  the three is the plain projection sum `projRef` at column  offset + 64 h + d  (the flat offset
  ((2048 b + l) · 16 + h) · 64 + d splits back into batch b, position l and channel 64 h + d).
  The scores are the 64-term inner products of the scaled queries with the keys (`refScore`); the softmax is spelled
  out as: row maximum from −∞ (and once more a maximum with −∞, which changes nothing), subtract, exponential, row sum
  from 0, divide; the last contraction over the 2048 keys with the values gives `attnCore`.
-/
import proofs.«167473_j43894565765797_2_alg».proof.Proof.AttnSpec
import proofs.«167473_j43894565765797_2_alg».proof.Proof.Gen.ReferenceIdeal.Read
import proofs.«167473_j43894565765797_2_alg».proof.Proof.Consts
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.AttnSpec

/-- The query array at (b, h, l, d) is the projection of x by Wq at column 64 h + d. -/
theorem q4_apply (x0 : (⟨S4x2048x1024, .f32⟩ : BufTy).Contents (Elt Ideal)) (x1 : (⟨S1024x1024, .f32⟩ : BufTy).Contents (Elt Ideal))
    (b : Fin 4) (h : Fin 16) (l : Fin 2048) (d : Fin 64) :
    Read.val_main_v5 (F := Ideal) x0 x1 (ix4 b h l d) = projRef x0 x1 0 (by omega) b h l d := by
  rw [Read.val_main_v5_apply, Read.val_main_v4_apply, Read.val_main_v0_apply]
  unfold projRef
  refine Finset.sum_congr rfl fun k _ => ?_
  have hb := b.isLt; have hh := h.isLt; have hl := l.isLt; have hd := d.isLt
  have e1 : Read.lidx_main_v0 (Read.idx_main_v4 (Read.idx_main_v5 (ix4 b h l d))) k = ix3 b l k := by
    funext a; apply Fin.ext
    match a with
    | ⟨0, _⟩ => show (((b.val * 2048 + l.val) * 16 + h.val) * 64 + d.val) / 2097152 = b.val; omega
    | ⟨1, _⟩ => show (((b.val * 2048 + l.val) * 16 + h.val) * 64 + d.val) / 1024 % 2048 = l.val; omega
    | ⟨2, _⟩ => rfl
  have e2 : Read.ridx_main_v0 (Read.idx_main_v4 (Read.idx_main_v5 (ix4 b h l d))) k = ix2 k (⟨0 + (h.val * 64 + d.val), by omega⟩ : Fin 1024) := by
    funext a; apply Fin.ext
    match a with
    | ⟨0, _⟩ => rfl
    | ⟨1, _⟩ => show (((b.val * 2048 + l.val) * 16 + h.val) * 64 + d.val) % 1024 = 0 + (h.val * 64 + d.val); omega
  rw [e1, e2]

/-- The key array at (b, h, l, d) is the projection of x by Wkv at column 64 h + d. -/
theorem k4_apply (x0 : (⟨S4x2048x1024, .f32⟩ : BufTy).Contents (Elt Ideal)) (x2 : (⟨S1024x2048, .f32⟩ : BufTy).Contents (Elt Ideal))
    (b : Fin 4) (h : Fin 16) (l : Fin 2048) (d : Fin 64) :
    Read.val_main_v9 (F := Ideal) x0 x2 (ix4 b h l d) = projRef x0 x2 0 (by omega) b h l d := by
  rw [Read.val_main_v9_apply, Read.val_main_v8_apply, Read.val_main_v2_apply, Read.val_main_v1_apply]
  unfold projRef
  refine Finset.sum_congr rfl fun k _ => ?_
  have hb := b.isLt; have hh := h.isLt; have hl := l.isLt; have hd := d.isLt
  have e1 : Read.lidx_main_v1 (Read.idx_main_v2 (Read.idx_main_v8 (Read.idx_main_v9 (ix4 b h l d)))) k = ix3 b l k := by
    funext a; apply Fin.ext
    match a with
    | ⟨0, _⟩ => show (((b.val * 2048 + l.val) * 16 + h.val) * 64 + d.val) / 2097152 = b.val; omega
    | ⟨1, _⟩ => show (((b.val * 2048 + l.val) * 16 + h.val) * 64 + d.val) / 1024 % 2048 = l.val; omega
    | ⟨2, _⟩ => rfl
  have e2 : Read.ridx_main_v1 (Read.idx_main_v2 (Read.idx_main_v8 (Read.idx_main_v9 (ix4 b h l d)))) k = ix2 k (⟨0 + (h.val * 64 + d.val), by omega⟩ : Fin 2048) := by
    funext a; apply Fin.ext
    match a with
    | ⟨0, _⟩ => rfl
    | ⟨1, _⟩ => show (((b.val * 2048 + l.val) * 16 + h.val) * 64 + d.val) % 1024 = 0 + (h.val * 64 + d.val); omega
  rw [e1, e2]

/-- The value array at (b, h, l, d) is the projection of x by Wkv at column 1024 + 64 h + d. -/
theorem v4_apply (x0 : (⟨S4x2048x1024, .f32⟩ : BufTy).Contents (Elt Ideal)) (x2 : (⟨S1024x2048, .f32⟩ : BufTy).Contents (Elt Ideal))
    (b : Fin 4) (h : Fin 16) (l : Fin 2048) (d : Fin 64) :
    Read.val_main_v11 (F := Ideal) x0 x2 (ix4 b h l d) = projRef x0 x2 1024 (by omega) b h l d := by
  rw [Read.val_main_v11_apply, Read.val_main_v10_apply, Read.val_main_v3_apply, Read.val_main_v1_apply]
  unfold projRef
  refine Finset.sum_congr rfl fun k _ => ?_
  have hb := b.isLt; have hh := h.isLt; have hl := l.isLt; have hd := d.isLt
  have e1 : Read.lidx_main_v1 (Read.idx_main_v3 (Read.idx_main_v10 (Read.idx_main_v11 (ix4 b h l d)))) k = ix3 b l k := by
    funext a; apply Fin.ext
    match a with
    | ⟨0, _⟩ => show (((b.val * 2048 + l.val) * 16 + h.val) * 64 + d.val) / 2097152 = b.val; omega
    | ⟨1, _⟩ => show (((b.val * 2048 + l.val) * 16 + h.val) * 64 + d.val) / 1024 % 2048 = l.val; omega
    | ⟨2, _⟩ => rfl
  have e2 : Read.ridx_main_v1 (Read.idx_main_v3 (Read.idx_main_v10 (Read.idx_main_v11 (ix4 b h l d)))) k = ix2 k (⟨1024 + (h.val * 64 + d.val), by omega⟩ : Fin 2048) := by
    funext a; apply Fin.ext
    match a with
    | ⟨0, _⟩ => rfl
    | ⟨1, _⟩ => show 1024 + (((b.val * 2048 + l.val) * 16 + h.val) * 64 + d.val) % 1024 = 1024 + (h.val * 64 + d.val); omega
  rw [e1, e2]

/-- The score of query q against key k: the inner product over the head's 64 channels of the scaled query entries with the key entries. -/
theorem score_apply (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q k : Fin 2048) :
    Read.val_main_v12 (F := Ideal) x0 x1 x2 (ix4 b h q k) = refScore x0 x1 x2 b h q k := by
  rw [Read.val_main_v12_apply]
  unfold refScore
  refine Finset.sum_congr rfl fun d _ => ?_
  have el : Read.lidx_main_v12 (ix4 b h q k) d = ix4 b h q d := by
    funext a; apply Fin.ext
    match a with | ⟨0, _⟩ => rfl | ⟨1, _⟩ => rfl | ⟨2, _⟩ => rfl | ⟨3, _⟩ => rfl
  have er : Read.ridx_main_v12 (ix4 b h q k) d = ix4 b h k d := by
    funext a; apply Fin.ext
    match a with | ⟨0, _⟩ => rfl | ⟨1, _⟩ => rfl | ⟨2, _⟩ => rfl | ⟨3, _⟩ => rfl
  rw [el, er, Read.val_main_v7_apply, q4_apply, k4_apply, Read.val_main_v6_apply, Read.val_main_cst_apply]
  rfl

/-- The maximum-reduce over the key axis, from −∞, is the row maximum of the scores. -/
theorem rowmax_apply (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q : Fin 2048) :
    Read.val_main_v13 (F := Ideal) x0 x1 x2 (ix3 b h q) = rowMax (fun k => refScore x0 x1 x2 b h q k) := by
  unfold Read.val_main_v13
  have hR : S4x16x2048x2048.Reduces [3] S4x16x2048 := by decide
  rw [Host.reduce_eq_fold_single FloatOps.maximumf _ _ reducesTo_S4x16x2048x2048_S4x16x2048_d3 hR h_S_]
  unfold rowMax
  have hf : (Read.val_main_v12 (F := Ideal) x0 x1 x2 ∘ hR.lift (ix3 b h q)) = fun k : Fin 2048 => refScore x0 x1 x2 b h q k := by
    funext k
    have e : hR.lift (ix3 b h q) k = ix4 b h q (⟨k.val, k.isLt⟩ : Fin 2048) := by
      funext c; apply Fin.ext
      match c with | ⟨0, _⟩ => rfl | ⟨1, _⟩ => rfl | ⟨2, _⟩ => rfl | ⟨3, _⟩ => rfl
    show Read.val_main_v12 (F := Ideal) x0 x1 x2 (hR.lift (ix3 b h q) k) = _
    rw [e, score_apply]
    rfl
  exact congrArg (fun f => Finset.fold max negInf f (Finset.univ : Finset (Fin 2048))) hf

/-- −∞ is the neutral element of the maximum on the extended reals. -/
theorem negInf_max (y : EReal) : max negInf y = y := max_negInf y

/-- the row of scores of query `q` in head `h` of batch `b` -/
abbrev srow (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q : Fin 2048) : Fin 2048 → EReal := fun k => refScore x0 x1 x2 b h q k

/-- The shift subtracted from every score of a row: the row maximum, after a further maximum with −∞ and two broadcasts. -/
theorem shift_apply (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q k : Fin 2048) :
    Read.val_main_v17 (F := Ideal) x0 x1 x2 (ix4 b h q k) = rowMax (srow x0 x1 x2 b h q) := by
  rw [Read.val_main_v17_apply, Read.val_main_v16_apply, Read.val_main_v15_apply, Read.val_main_v14_apply, Read.val_main_cst_1_apply]
  have e : Read.idx_main_v16 (Read.idx_main_v17 (ix4 b h q k)) = ix3 b h q := by
    funext a; apply Fin.ext
    match a with | ⟨0, _⟩ => rfl | ⟨1, _⟩ => rfl | ⟨2, _⟩ => rfl
  rw [e, rowmax_apply]
  exact negInf_max _

/-- The exponential of a shifted score. -/
theorem exp_apply (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q k : Fin 2048) :
    Read.val_main_v19 (F := Ideal) x0 x1 x2 (ix4 b h q k)
      = Ideal.exp (srow x0 x1 x2 b h q k - rowMax (srow x0 x1 x2 b h q)) := by
  rw [Read.val_main_v19_apply, Read.val_main_v18_apply, score_apply, shift_apply]
  rfl

/-- The softmax denominator: the sum over the row, from 0, of the exponentials, broadcast back along the row. -/
theorem denom_apply (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q k : Fin 2048) :
    Read.val_main_v22 (F := Ideal) x0 x1 x2 (ix4 b h q k)
      = ∑ k' : Fin 2048, Ideal.exp (srow x0 x1 x2 b h q k' - rowMax (srow x0 x1 x2 b h q)) := by
  rw [Read.val_main_v22_apply, Read.val_main_v21_apply, Read.val_main_v20_apply, Read.val_main_cst_2_apply]
  have e0 : (FloatOps.ofBits (F := Ideal) .f32 0x00000000#32 : EReal) = 0 := Ideal.ofBits_zero_f32
  rw [e0, zero_add]
  refine Finset.sum_congr rfl fun k' _ => ?_
  have e : Read.idx_main_v20 (Read.idx_main_v21 (Read.idx_main_v22 (ix4 b h q k))) k' = ix4 b h q k' := by
    funext a; apply Fin.ext
    match a with | ⟨0, _⟩ => rfl | ⟨1, _⟩ => rfl | ⟨2, _⟩ => rfl | ⟨3, _⟩ => rfl
  rw [e, exp_apply]

/-- A softmax weight: the exponential divided by the row's sum. -/
theorem prob_apply (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q k : Fin 2048) :
    Read.val_main_v23 (F := Ideal) x0 x1 x2 (ix4 b h q k)
      = Ideal.div (Ideal.exp (srow x0 x1 x2 b h q k - rowMax (srow x0 x1 x2 b h q)))
          (∑ k' : Fin 2048, Ideal.exp (srow x0 x1 x2 b h q k' - rowMax (srow x0 x1 x2 b h q))) := by
  rw [Read.val_main_v23_apply, exp_apply, denom_apply]
  rfl

/-- The output at (b, h, q, d): the softmax weights of row q contracted with the values' channel d. -/
theorem ref_out_at (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal))
    (b : Fin 4) (h : Fin 16) (q : Fin 2048) (d : Fin 64) :
    Read.val_main_v24 x0 x1 x2 (ix4 b h q d) = refOut x0 x1 x2 (ix4 b h q d) := by
  rw [Read.val_main_v24_apply]
  show _ = attnCore (srow x0 x1 x2 b h q) (fun k => projRef x0 x2 1024 (by omega) b h k d)
  unfold attnCore
  refine Finset.sum_congr rfl fun k _ => ?_
  have el : Read.lidx_main_v24 (ix4 b h q d) k = ix4 b h q k := by
    funext a; apply Fin.ext
    match a with | ⟨0, _⟩ => rfl | ⟨1, _⟩ => rfl | ⟨2, _⟩ => rfl | ⟨3, _⟩ => rfl
  have er : Read.ridx_main_v24 (ix4 b h q d) k = ix4 b h k d := by
    funext a; apply Fin.ext
    match a with | ⟨0, _⟩ => rfl | ⟨1, _⟩ => rfl | ⟨2, _⟩ => rfl | ⟨3, _⟩ => rfl
  rw [el, er, prob_apply, v4_apply]

/-- The reference's attention output before its last reshape is `refOut`. -/
theorem ref_out (x0 : (⟨S4x2048x1024, .f32⟩ : BufTy).Contents (Elt Ideal)) (x1 : (⟨S1024x1024, .f32⟩ : BufTy).Contents (Elt Ideal)) (x2 : (⟨S1024x2048, .f32⟩ : BufTy).Contents (Elt Ideal)) :
    Read.val_main_v24 x0 x1 x2 = refOut x0 x1 x2 := by
  funext i
  have e : i = ix4 (n0 := 4) (n1 := 16) (n2 := 2048) (n3 := 64) (i 0) (i 1) (i 2) (i 3) := eq_ix4 i
  exact (congrArg (Read.val_main_v24 x0 x1 x2) e).trans
    ((ref_out_at x0 x1 x2 (i 0) (i 1) (i 2) (i 3)).trans (congrArg (refOut x0 x1 x2) e).symm)

end Cert.ReferenceIdeal.RefValue

end
-- ==== Proof.Bridge.lean ====
/-
  The kernel's head-split result, read in the layout [4, 16, 2048, 64], is the reference's.

  Two facts make the two sides agree.  (1) Position (b, h, l, d) of the four-axis layout and position
  (16 b + h, l, d) of the three-axis layout are the same row-major position, and 16 b + h divided by 16
  is b with remainder h, so the two layouts name the same projection entries.  (2) The kernel scales a
  score after the 64-term inner product, the reference scales the query entries before it:
  (Σ_d Q_d K_d) · c = Σ_d (Q_d · c) K_d.  On the extended reals multiplication does not distribute over
  addition at the infinities, so this needs the entries to be real numbers: they are finite sums of
  products of real inputs, and the scale c is the real number 1/8.
-/
import proofs.«167473_j43894565765797_2_alg».proof.Proof.AttnSpec
import proofs.«167473_j43894565765797_2_alg».proof.Proof.Consts
import Idealize.ShloMosaic.Lib.Pipeline.Value
import Idealize.ShloMosaic.Lib.ValueIdx

noncomputable section

namespace Cert.AttnSpec

open Idealize.ShloMosaic Idealize.ShloMosaic.ValueIdx

/-- An extended real that is a real number. -/
def IsReal (a : EReal) : Prop := ∃ r : ℝ, a = (r : EReal)

/-- A product of two real numbers is a real number. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of real numbers is a real number. -/
theorem isReal_sum {ι : Type} (s : Finset ι) (f : ι → EReal) (h : ∀ i, IsReal (f i)) :
    IsReal (∑ i ∈ s, f i) := by
  choose g hg using h
  refine ⟨∑ i ∈ s, g i, ?_⟩
  rw [coe_sum]
  exact Finset.sum_congr rfl fun i _ => hg i

/-- On real entries, scaling an inner product is scaling its left factors. -/
theorem sum_mul_scale {ι : Type} (s : Finset ι) (a b : ι → EReal) (c : EReal)
    (ha : ∀ i, IsReal (a i)) (hb : ∀ i, IsReal (b i)) (hc : IsReal c) :
    (∑ i ∈ s, a i * b i) * c = ∑ i ∈ s, (a i * c) * b i := by
  choose ar har using ha
  choose br hbr using hb
  obtain ⟨cr, rfl⟩ := hc
  have h1 : (∑ i ∈ s, a i * b i) = ((∑ i ∈ s, ar i * br i : ℝ) : EReal) := by
    rw [coe_sum]
    exact Finset.sum_congr rfl fun i _ => by rw [har i, hbr i, EReal.coe_mul]
  have h2 : (∑ i ∈ s, (a i * (cr : EReal)) * b i) = ((∑ i ∈ s, (ar i * cr) * br i : ℝ) : EReal) := by
    rw [coe_sum]
    exact Finset.sum_congr rfl fun i _ => by rw [har i, hbr i, EReal.coe_mul, EReal.coe_mul]
  rw [h1, h2, ← EReal.coe_mul, Finset.sum_mul]
  congr 1
  exact Finset.sum_congr rfl fun i _ => by ring

theorem isReal_scale : IsReal scale := ⟨_, scale_eq⟩

/-- A projection entry over real inputs is a real number. -/
theorem isReal_projRef {n : Nat} (x : SX.Idx → EReal) (w : (⟨2, ![1024, n]⟩ : Shape).Idx → EReal) (o : Nat)
    (ho : o + 1024 ≤ n) (hx : ∀ i, IsReal (x i)) (hw : ∀ i, IsReal (w i))
    (b : Fin 4) (h : Fin 16) (l : Fin 2048) (d : Fin 64) : IsReal (projRef x w o ho b h l d) := by
  unfold projRef
  exact isReal_sum _ _ fun k => isReal_mul (hx _) (hw _)

/-- The head-split layout's entry at first coordinate 16 b + h is the entry of batch b, head h. -/
theorem projAt_eq_projRef {n : Nat} (x : SX.Idx → EReal) (w : (⟨2, ![1024, n]⟩ : Shape).Idx → EReal) (o : Nat)
    (ho : o + 1024 ≤ n) (bh : Fin 64) (b : Fin 4) (h : Fin 16) (hb : bh.val / 16 = b.val)
    (hh : bh.val % 16 = h.val) (l : Fin 2048) (d : Fin 64) :
    projAt x w o ho bh l d = projRef x w o ho b h l d := by
  unfold projAt projRef
  refine Finset.sum_congr rfl fun k _ => ?_
  have e1 : (⟨bh.val / 16, by omega⟩ : Fin 4) = b := Fin.ext hb
  have e2 : (⟨o + (bh.val % 16 * 64 + d.val), by omega⟩ : Fin n)
      = ⟨o + (h.val * 64 + d.val), by omega⟩ := Fin.ext (by show o + (bh.val % 16 * 64 + d.val) = o + (h.val * 64 + d.val); rw [hh])
  rw [e1, e2]

/-- On real entries the kernel's head-split result, recast to [4, 16, 2048, 64], is the reference's. -/
theorem bridge (x : SX.Idx → EReal) (wq : (⟨2, ![1024, 1024]⟩ : Shape).Idx → EReal)
    (wkv : (⟨2, ![1024, 2048]⟩ : Shape).Idx → EReal)
    (hx : ∀ i, ∃ r : ℝ, x i = (r : EReal)) (hq : ∀ i, ∃ r : ℝ, wq i = (r : EReal))
    (hkv : ∀ i, ∃ r : ℝ, wkv i = (r : EReal))
    (hc : SHd.ShapeCasts SB4) : shapeCast SB4 (kerOut x wq wkv) hc = refOut x wq wkv := by
  funext i
  obtain ⟨b, h, l, d, rfl⟩ : ∃ (b : Fin 4) (h : Fin 16) (l : Fin 2048) (d : Fin 64), i = ix4 b h l d :=
    ⟨i 0, i 1, i 2, i 3, eq_ix4 i⟩
  have hbh : b.val * 16 + h.val < 64 := by omega
  have hb : (b.val * 16 + h.val) / 16 = b.val := by omega
  have hh : (b.val * 16 + h.val) % 16 = h.val := by omega
  rw [shapeCast_apply (kerOut x wq wkv) hc (ix4 b h l d) (ix3 (⟨b.val * 16 + h.val, hbh⟩ : Fin 64) l d) (by
    rw [Shape.rowMajor_val_three, Shape.rowMajor_val_four]
    show ((b.val * 16 + h.val) * 2048 + l.val) * 64 + d.val = ((b.val * 16 + h.val) * 2048 + l.val) * 64 + d.val
    rfl)]
  show attnCore
      (fun k => (∑ d' : Fin 64, projAt x wq 0 (by omega) ⟨b.val * 16 + h.val, hbh⟩ l d'
        * projAt x wkv 0 (by omega) ⟨b.val * 16 + h.val, hbh⟩ k d') * scale)
      (fun k => projAt x wkv 1024 (by omega) ⟨b.val * 16 + h.val, hbh⟩ k d)
    = attnCore (fun k => refScore x wq wkv b h l k) (fun k => projRef x wkv 1024 (by omega) b h k d)
  have hs : (fun k => (∑ d' : Fin 64, projAt x wq 0 (by omega) ⟨b.val * 16 + h.val, hbh⟩ l d'
        * projAt x wkv 0 (by omega) ⟨b.val * 16 + h.val, hbh⟩ k d') * scale)
      = (fun k => refScore x wq wkv b h l k) := by
    funext k
    unfold refScore
    rw [← sum_mul_scale Finset.univ (fun d' => projRef x wq 0 (by omega) b h l d')
      (fun d' => projRef x wkv 0 (by omega) b h k d') scale
      (fun d' => isReal_projRef x wq 0 _ hx hq b h l d')
      (fun d' => isReal_projRef x wkv 0 _ hx hkv b h k d') isReal_scale]
    congr 1
    refine Finset.sum_congr rfl fun d' _ => ?_
    rw [projAt_eq_projRef x wq 0 _ ⟨b.val * 16 + h.val, hbh⟩ b h hb hh,
      projAt_eq_projRef x wkv 0 _ ⟨b.val * 16 + h.val, hbh⟩ b h hb hh]
  have hv : (fun k => projAt x wkv 1024 (by omega) ⟨b.val * 16 + h.val, hbh⟩ k d)
      = (fun k => projRef x wkv 1024 (by omega) b h k d) := by
    funext k
    exact projAt_eq_projRef x wkv 1024 _ ⟨b.val * 16 + h.val, hbh⟩ b h hb hh k d
  rw [hs, hv]

end Cert.AttnSpec

end
-- ==== Proof.FiniteInputs.lean ====
import proofs.«167473_j43894565765797_2_alg».proof.Defs
import proofs.«167473_j43894565765797_2_alg».proof.Pre_finite_inputs
import proofs.«167473_j43894565765797_2_alg».proof.Proof.Consts
import Idealize.ShloMosaic.Lib.ReduceAll
import Idealize.ShloMosaic.Lib.ValueIdx
import Idealize.ShloMosaic.Lib.IdealHost
import Idealize.ShloMosaic.PureOps.Ideal.Laws

/-!
  From the printed precondition to "every entry of every argument array is a real number".

  The precondition is the conjunction, over the three argument arrays, of "all entries x satisfy |x| < +∞",
  each "all" printed as a reduction by `and` over every axis. Read at the extended reals, |x| = max x (-x), and
  max x (-x) < ⊤ excludes both ⊤ and ⊥, so x is the image of a real number.
-/

noncomputable section

namespace Cert.KernelIdeal.FiniteInputs

open Idealize.ShloMosaic Idealize.ShloMosaic.TcCoe Idealize.SL.Sem
open Cert.KernelIdeal

/-- An extended real whose absolute value max x (-x) lies strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 result shape has exactly one index. -/
instance : Subsingleton Cert.Pre_finite_inputs.S_.Idx := ⟨fun a b => funext fun d => d.elim0⟩

/-- One conjunct of the precondition: if the reduction by `and` over all axes of the comparisons |x i| < +∞ is 1,
    every x i is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1)
    (i : s.Idx) : ∃ r : ℝ, x i = (r : EReal) := by
  have hi := Host.reduce_andi_all _ _ hr hu ValueIdx.ix0 e i
  rw [ValueIdx.cmpf_apply, ValueIdx.broadcastInDim_scalar_apply, ValueIdx.constant_apply, Cert.AttnSpec.posInf_word] at hi
  change Ideal.cmp .olt (max (x i) (-(x i))) ⊤ = 1#1 at hi
  refine real_of_abs_lt_top (x i) ?_
  by_contra hn
  simp [Ideal.cmp, hn] at hi

theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨real_of_all _ _ _ _ h0', real_of_all _ _ _ _ h1, real_of_all _ _ _ _ h2⟩

end Cert.KernelIdeal.FiniteInputs

end
-- ==== Proof.lean ====
/-
  Self-attention over x : [4, 2048, 1024] with 16 heads of 64 channels: the kernel against its reference,
  on the extended reals.

  Both programs project x by Wq and by the two halves of Wkv, split the 1024 channels into heads, score
  each query row against the 2048 key rows of its head, take the softmax of the scores (shifted by the row
  maximum) and apply it to the value rows; the result [4, 16, 2048, 64] is read as [4, 2048, 1024] by a plain
  reshape in both.  The kernel does this in two grids — a projection that writes the three arrays head-split as
  [64, 2048, 64], and an attention over blocks of 64 query rows — and multiplies a score by 1/8 after the
  64-term inner product; the reference multiplies the query entries by 1/8 before it.  With real inputs every
  projection entry is a real number, and on real numbers (Σ_d q_d k_d) · c = Σ_d (q_d c) k_d; that is the only
  law needed, and the only place the precondition (all inputs finite) is used.

  Modules: AttnSpec (the common formulas), Consts (the float words' values), ProjPayload and AttnPayload (the two
  bodies read at an index), ProjValue and AttnValue (each region's output arrays as whole-array functions of the
  arrays it reads), KernelRun (the run with the result named) and KernelValue (the result as a function of the
  arguments), RefValue (the reference's attention output is the common formula), Bridge (the two formulas agree on
  real entries), FiniteInputs (the precondition makes the entries real).
-/
import proofs.«167473_j43894565765797_2_alg».proof.Defs
import proofs.«167473_j43894565765797_2_alg».proof.Proof.Gen.Kernel
import proofs.«167473_j43894565765797_2_alg».proof.Proof.Gen.Kernel.Skeleton
import proofs.«167473_j43894565765797_2_alg».proof.Proof.Gen.Kernel.Launch
import proofs.«167473_j43894565765797_2_alg».proof.Proof.Gen.Kernel.Points
import proofs.«167473_j43894565765797_2_alg».proof.Proof.Gen.Kernel.Frame
import proofs.«167473_j43894565765797_2_alg».proof.Proof.Gen.KernelIdeal
import proofs.«167473_j43894565765797_2_alg».proof.Proof.Gen.KernelIdeal.Skeleton
import proofs.«167473_j43894565765797_2_alg».proof.Proof.Gen.KernelIdeal.Launch
import proofs.«167473_j43894565765797_2_alg».proof.Proof.Gen.KernelIdeal.Points
import proofs.«167473_j43894565765797_2_alg».proof.Proof.Gen.KernelIdeal.Frame
import proofs.«167473_j43894565765797_2_alg».proof.Proof.Gen.ReferenceIdeal
import proofs.«167473_j43894565765797_2_alg».proof.Proof.Gen.ReferenceIdeal.Run
import proofs.«167473_j43894565765797_2_alg».proof.Proof.Gen.ReferenceIdeal.Read
import proofs.«167473_j43894565765797_2_alg».proof.Proof.Gen.Pre_finite_inputs
import proofs.«167473_j43894565765797_2_alg».proof.Proof.AttnSpec
import proofs.«167473_j43894565765797_2_alg».proof.Proof.KernelValue
import proofs.«167473_j43894565765797_2_alg».proof.Proof.RefValue
import proofs.«167473_j43894565765797_2_alg».proof.Proof.Bridge
import proofs.«167473_j43894565765797_2_alg».proof.Proof.FiniteInputs
import Idealize.ShloMosaic.Adequacy
import Idealize.ShloMosaic.Init

noncomputable section

namespace Cert.Proof

open Idealize.ShloMosaic Idealize.ShloMosaic.TcCoe Idealize.SL.Sem Cert.AttnSpec

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same array: the reshape to
    [4, 2048, 1024] of the reference's attention output.  The kernel's side is its result formula recast
    (`KernelValue.result`) and the agreement of the two formulas on real entries (`bridge`), the entries
    being real by the precondition; the reference's side is its run read back (`ref_out`). -/
theorem algebraic : Cert.algebraic_KernelIdeal_ReferenceIdeal := by
  intro m ρ m' ρ' hpre hagree
  refine ⟨fun c => shapeCast Cert.KernelIdeal.S4x2048x1024
      (refOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      Cert.KernelIdeal.Gen.shapeCasts_S4x16x2048x64_S4x2048x1024, ?_, ?_⟩
  · refine (θ_run Cert.KernelIdeal.defs _ _).mono (fun r h c => ⟨(h c).1.trans ?_, (h c).2⟩)
      (Cert.KernelIdeal.RunValue.run_named (F := Ideal) m ρ)
    obtain ⟨hx, hq, hkv⟩ := Cert.KernelIdeal.FiniteInputs.real_inputs m hpre c
    rw [Cert.KernelIdeal.KernelValue.result m ρ c, bridge _ _ _ hx hq hkv]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, (hagree c).1, (hagree c).2.1, (hagree c).2.2]
    unfold Cert.ReferenceIdeal.Read.val_main_v25
    rw [Cert.ReferenceIdeal.RefValue.ref_out]

/-- The certificate: the three frames, the (empty) list of idealization rewrites, and the equality of results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
